-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S2x800000 32) (main_arg2 : FVec F S800000 .f32) (main_arg3 : FVec F S512x128 .f32) (main_arg4 : FVec F S128 .f32) (main_arg5 : FVec F S128x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 89
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x40, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x40, .f32⟩
  | .hbm, ⟨80, _⟩ => ⟨S850000x1, .f32⟩
  | .hbm, ⟨81, _⟩ => ⟨S850000x40, .f32⟩
  | .hbm, ⟨82, _⟩ => ⟨S850000x40, .f32⟩
  | .hbm, ⟨83, _⟩ => ⟨S_, .f32⟩
  | .hbm, ⟨84, _⟩ => ⟨S50000x40, .f32⟩
  | .hbm, ⟨85, _⟩ => ⟨S850000x1, .i32⟩
  | .hbm, ⟨86, _⟩ => ⟨S50000x40, .f32⟩
  | .hbm, ⟨87, _⟩ => ⟨S1x40, .f32⟩
  | .hbm, ⟨88, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S1x128, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 157
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x128, .f32⟩
  | 4 => ⟨S128, .f32⟩
  | 5 => ⟨S128x40, .f32⟩
  | 6 => ⟨S40, .f32⟩
  | 7 => ⟨S1x800000, .i32⟩
  | 8 => ⟨S800000, .i32⟩
  | 9 => ⟨S50000, .i32⟩
  | 10 => ⟨S850000, .i32⟩
  | 11 => ⟨S1x800000, .i32⟩
  | 12 => ⟨S800000, .i32⟩
  | 13 => ⟨S50000, .i32⟩
  | 14 => ⟨S850000, .i32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x800000, .i32⟩
  | 77 => ⟨S800000, .i32⟩
  | 78 => ⟨S50000, .i32⟩
  | 79 => ⟨S850000, .i32⟩
  | 80 => ⟨S1x800000, .i32⟩
  | 81 => ⟨S800000, .i32⟩
  | 82 => ⟨S50000, .i32⟩
  | 83 => ⟨S850000, .i32⟩
  | 84 => ⟨S_, .f32⟩
  | 85 => ⟨S50000, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S850000, .f32⟩
  | 122 => ⟨S50000x40, .f32⟩
  | 123 => ⟨S_, .i32⟩
  | 124 => ⟨S850000, .i32⟩
  | 125 => ⟨S850000, .i1⟩
  | 126 => ⟨S_, .i32⟩
  | 127 => ⟨S850000, .i32⟩
  | _ => ⟨S50000x512, .f32⟩

abbrev hbmTy0_1 (i : Nat) : BufTy := match i % 128 with
  | 0 => ⟨S850000, .i32⟩
  | 1 => ⟨S850000, .i32⟩
  | 2 => ⟨S850000x1, .i32⟩
  | 3 => ⟨S850000x40, .f32⟩
  | 4 => ⟨S850000x1, .f32⟩
  | 5 => ⟨S850000x40, .f32⟩
  | 6 => ⟨S850000x40, .f32⟩
  | 7 => ⟨S_, .f32⟩
  | 8 => ⟨S50000x40, .f32⟩
  | 9 => ⟨S850000x1, .i32⟩
  | 10 => ⟨S50000x40, .f32⟩
  | 11 => ⟨S1x40, .f32⟩
  | 12 => ⟨S50000x40, .f32⟩
  | 13 => ⟨S50000x40, .f32⟩
  | 14 => ⟨S_, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x40, .f32⟩
  | 21 => ⟨S50000x40, .f32⟩
  | 22 => ⟨S50000x40, .f32⟩
  | 23 => ⟨S_, .f32⟩
  | 24 => ⟨S50000, .f32⟩
  | 25 => ⟨S50000x1, .f32⟩
  | 26 => ⟨S50000x1, .f32⟩
  | 27 => ⟨S50000x40, .f32⟩
  | 28 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_19 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call3_cst : Ref sig .tc := ⟨.hbm, 142, rfl⟩
abbrev main_call3_v0 : Ref sig .tc := ⟨.hbm, 143, rfl⟩
abbrev main_call3_cst_0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_v6 : Ref sig .tc := ⟨.hbm, 150, rfl⟩
abbrev main_call3_cst_1 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_v105 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result named.

  @main is three pipelined regions among stretches of host operations. The frame module folds the buffer contents
  through those eight segments: `W0` is the launch memory, `W1 … W3` the contents after the three host stretches
  before the first region, `W4` after the first region (its output array at what its write-backs leave), `W5` after
  the next stretch, and so on to `W8` after the last region. Every execution ends with every unscoped buffer at `W8`;
  here that is read at @main's result buffer as well as at the seven arguments.
-/
import proofs.«114802_j66829691125867_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last boundary's
    contents `W8` and the seven argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Body0.lean ====
/-
  The first region's body at a point of its block: rows of the feature block times the whole first weight matrix.
  The body rounds both operands to bf16 (the identity on the extended reals) and multiplies into a zero accumulator,
  so its entry `(p, q)` is `Σ_k x[p,k]·w[k,q]` over the 512 feature columns.
-/
import proofs.«114802_j66829691125867_2_alg».proof.Proof.Gen.KernelIdeal.Skeleton
import proofs.«114802_j66829691125867_2_alg».proof.Proof.LibPlainDot
import Idealize.ShloMosaic.Lib.ValueIdx

noncomputable section

namespace Cert.KernelIdeal.Hand

open Cert.KernelIdeal Cert.KernelIdeal.Gen Idealize.ShloMosaic Idealize.ShloMosaic.ValueIdx

/-- The printed dimension numbers of the first product are the plain ones of a 5000×512 by 512×128 product. -/
theorem dot0_plain : dot_S5000x512_S512x128_S5000x128_1_0_0_1_n_n = DotDims.plain 5000 512 128 := rfl

/-- Entry `(p, q)` of what the first region's body stores. -/
theorem body0_apply (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) :=
  Cert.Lib.plain_matmul_zero_apply 5000 512 128 none (truncf .bf16 x0 bitsLt_bf16_f32) (truncf .bf16 x1 bitsLt_bf16_f32) p q

end Cert.KernelIdeal.Hand

end
-- ==== Proof.Spec.lean ====
/-
  The three dense stages of the two-layer graph convolution, as functions of whole arrays read index by index on
  the extended reals, and the two row reductions the last stage rests on.

  * `matProd M K N x w`: the product of an `M×K` array with a `K×N` array, `(i, j) ↦ Σ_k x[i,k]·w[k,j]`.
  * `biasRelu z a b`: a bias added down the rows of `a`, then the maximum with `z` (the programs take `z` the zero).
  * `rowMax b f`: the maximum of a row `f` taken from a start value `b` (the programs start from `-∞`).
  * `logSoftmax b x`: each row `r` of `x` shifted by its maximum `μ_r`, less the logarithm of the row's sum of
    exponentials: `(x[r,j] - μ_r) - log Σ_k exp (x[r,k] - μ_r)`.

  Both programs compute exactly these, in this order and grouping, so no law of the extended reals beyond the
  reading of a reduction as a fold or a sum over the reduced axis is needed.
-/
import Idealize.ShloMosaic.PureOps.Ideal
import Idealize.ShloMosaic.PureOps.Ideal.Laws
import Idealize.ShloMosaic.Lib.ValueIdx
import Mathlib.Data.Finset.Fold

noncomputable section

namespace Cert.Spec

open Idealize.ShloMosaic Idealize.ShloMosaic.ValueIdx

/-- The product of an `M×K` array with a `K×N` array. -/
def matProd (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (M K N : Nat) (x : (⟨2, ![M, K]⟩ : Shape).Idx → EReal) (w : (⟨2, ![K, N]⟩ : Shape).Idx → EReal)
    (p : Fin M) (q : Fin N) : matProd M K N x w (ix2 p q) = ∑ k : Fin K, x (ix2 p k) * w (ix2 k q) := rfl

/-- A bias `b` (one entry per column) added down the rows of `a`, then the maximum with `z`. -/
def biasRelu (M K : Nat) (z : EReal) (a : (⟨2, ![M, K]⟩ : Shape).Idx → EReal) (b : (⟨1, ![K]⟩ : Shape).Idx → EReal) :
    (⟨2, ![M, K]⟩ : Shape).Idx → EReal :=
  fun i => max (a i + b (ix1 (i 1))) z

theorem biasRelu_apply (M K : Nat) (z : EReal) (a : (⟨2, ![M, K]⟩ : Shape).Idx → EReal) (b : (⟨1, ![K]⟩ : Shape).Idx → EReal)
    (p : Fin M) (k : Fin K) : biasRelu M K z a b (ix2 p k) = max (a (ix2 p k) + b (ix1 k)) z := rfl

/-- A bias added down the rows. -/
def addBias (M K : Nat) (a : (⟨2, ![M, K]⟩ : Shape).Idx → EReal) (b : (⟨1, ![K]⟩ : Shape).Idx → EReal) :
    (⟨2, ![M, K]⟩ : Shape).Idx → EReal :=
  fun i => a i + b (ix1 (i 1))

/-- The maximum of the row `f` taken from the start value `b`. -/
def rowMax {n : Nat} (b : EReal) (f : Fin n → EReal) : EReal := (Finset.univ : Finset (Fin n)).fold max b f

/-- Taking the maximum with the start value once more changes nothing: the fold is already above it. -/
theorem max_start_rowMax {n : Nat} (b : EReal) (f : Fin n → EReal) : max b (rowMax b f) = rowMax b f :=
  max_eq_right ((Finset.le_fold_max b).mpr (Or.inl le_rfl))

/-- The same, with the maximum spelt as the float operation at the ideal values. -/
theorem maximumf_start_rowMax {n : Nat} (b : EReal) (f : Fin n → EReal) :
    FloatOps.maximumf (F := Ideal) (φ := .f32) b (rowMax b f) = rowMax b f := max_start_rowMax b f

/-- Row `r` of `x`, as a function of the column. -/
def rowOf {M K : Nat} (x : (⟨2, ![M, K]⟩ : Shape).Idx → EReal) (r : Fin M) : Fin K → EReal := fun k => x (ix2 r k)

/-- The logarithm of the softmax along the rows, with the row maximum taken from `b`. -/
def logSoftmax (M K : Nat) (b : EReal) (x : (⟨2, ![M, K]⟩ : Shape).Idx → EReal) : (⟨2, ![M, K]⟩ : Shape).Idx → EReal :=
  fun i => (x i - rowMax b (rowOf x (i 0)))
    - Ideal.log (∑ k : Fin K, Ideal.exp (x (ix2 (i 0) k) - rowMax b (rowOf x (i 0))))

theorem logSoftmax_apply (M K : Nat) (b : EReal) (x : (⟨2, ![M, K]⟩ : Shape).Idx → EReal) (p : Fin M) (q : Fin K) :
    logSoftmax M K b x (ix2 p q) = (x (ix2 p q) - rowMax b (rowOf x p))
      - Ideal.log (∑ k : Fin K, Ideal.exp (x (ix2 p k) - rowMax b (rowOf x p))) := rfl

/-- The logarithm of the softmax at `(p, q)` depends on row `p` only: two arrays (of any heights) with equal rows give
    equal entries. -/
theorem logSoftmax_row_congr {M M' K : Nat} (b : EReal) (x : (⟨2, ![M, K]⟩ : Shape).Idx → EReal)
    (y : (⟨2, ![M', K]⟩ : Shape).Idx → EReal) (p : Fin M) (r : Fin M') (h : ∀ k : Fin K, x (ix2 p k) = y (ix2 r k)) (q : Fin K) :
    logSoftmax M K b x (ix2 p q) = logSoftmax M' K b y (ix2 r q) := by
  have hrow : rowOf x p = rowOf y r := funext h
  rw [logSoftmax_apply, logSoftmax_apply, hrow, h q]
  refine congrArg (fun s => (y (ix2 r q) - rowMax b (rowOf y r)) - Ideal.log s) (Finset.sum_congr rfl fun k _ => ?_)
  rw [h k]

end Cert.Spec

end
-- ==== Proof.Region0.lean ====
/-
  The first region's output array: the product of the whole feature matrix with the first weight matrix.

  The region runs over ten grid points; point `t` reads rows `5000 t … 5000 t + 4999` of the features and the whole
  weight matrix, and writes back rows `5000 t … 5000 t + 4999` of the output. A row of a product depends only on
  the same row of the left operand, so what point `t` writes back is block `t` of the product of the whole
  arrays; the ten row blocks tile the 50000 rows (row `r` lies in block `r / 5000`), so the array ends holding the
  whole product. Stated at any contents `V` the region is entered with.
-/
import proofs.«114802_j66829691125867_2_alg».proof.Proof.Gen.KernelIdeal.Frame
import proofs.«114802_j66829691125867_2_alg».proof.Proof.Body0
import proofs.«114802_j66829691125867_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off_r0 : (![0, 0] : Fin 2 → Nat) = fun _ => 0 := funext fun a => by fin_cases a <;> rfl

/-- The printed index maps over the grid: the feature and output windows move down the rows with the point, the weight
    window stays. -/
theorem idx_r0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem flushed_r0 (c : Dev nD) (t : Fin cfg0.N) :
    (dat0 V c).flushed 2 t = ((cfg0.win 2).blk t).view.read (Elt Ideal)
      (Cert.Spec.matProd 50000 512 128 (V c main_arg0) (V c main_arg3)) := by
  show (cfg0.win 2).cut (grid0.coords t) ((dat0 V c).after 2 t) = _
  rw [after0_2]
  unfold out0_2
  rw [View.canon_unit_zero zero_off_r0]
  simp only [View.ld_unit_zero (S := S5000x512) zero_off_r0, View.ld_unit_zero (S := S512x128) zero_off_r0]
  obtain ⟨e0, e1, e2, e3, e4, e5⟩ := idx_r0 t
  have ht : t.val < 10 := (show cfg0.N = 10 from N_0) ▸ t.isLt
  funext j
  revert j
  show ∀ j : S5000x128.Idx, k0_pay1 (F := Ideal) (iblk0 V c 0 t) (iblk0 V c 1 t) j
    = Cert.Spec.matProd 50000 512 128 (V c main_arg0) (V c main_arg3) (((cfg0.win 2).blk t).view.emb j)
  intro j
  obtain ⟨p, q, rfl⟩ : ∃ (p : Fin 5000) (q : Fin 128), j = ix2 p q := ⟨j 0, j 1, eq_ix2 j⟩
  refine (body0_apply (iblk0 V c 0 t) (iblk0 V c 1 t) p q).trans ?_
  have hp : p.val < 5000 := p.isLt
  have h2 : ((cfg0.win 2).blk t).view.emb (ix2 p q) = (ix2 (⟨t.val * 5000 + p.val, by omega⟩ : Fin 50000) q : S50000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [h2, Cert.Spec.matProd_apply]
  refine Finset.sum_congr rfl fun k _ => ?_
  have h0 : ((cfg0.win 0).blk t).view.emb (ix2 p k) = (ix2 (⟨t.val * 5000 + p.val, by omega⟩ : Fin 50000) k : S50000x512.Idx) := by
    funext a; apply Fin.ext
    match a with
    | ⟨0, _⟩ => show win0_0.index t (0 : Fin 2) * 5000 + 1 * p.val = t.val * 5000 + p.val; omega
    | ⟨1, _⟩ => show win0_0.index t (1 : Fin 2) * 512 + 1 * k.val = k.val; omega
  have h1 : ((cfg0.win 1).blk t).view.emb (ix2 k q) = (ix2 k q : S512x128.Idx) := by
    funext a; apply Fin.ext
    match a with
    | ⟨0, _⟩ => show win0_1.index t (0 : Fin 2) * 512 + 1 * k.val = k.val; omega
    | ⟨1, _⟩ => show win0_1.index t (1 : Fin 2) * 128 + 1 * q.val = q.val; omega
  show FloatOps.mulf (F := Ideal) (φ := .f32) (V c main_arg0 (((cfg0.win 0).blk t).view.emb (ix2 p k)))
    (V c main_arg3 (((cfg0.win 1).blk t).view.emb (ix2 k q))) = _
  rw [h0, h1]
  rfl

/-- An index of the output array is in point `t`'s block iff each coordinate is in the block's range on its axis. -/
theorem mem_blk_r0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

/-- THE FIRST REGION'S ARRAY after its run: the product of the two arrays it was entered with. -/
theorem arr_r0 (c : Dev nD) :
    (dat0 V c).arrAt 2 cfg0.N = Cert.Spec.matProd 50000 512 128 (V c main_arg0) (V c main_arg3) :=
  (dat0 V c).arrAt_eq_of_cover 2 _ (fun t _ => flushed_r0 V c t) fun i => by
    have hi0 : (i 0).val < 50000 := (i 0).isLt
    have hi1 : (i 1).val < 128 := (i 1).isLt
    have hN : cfg0.N = 10 := N_0
    obtain ⟨e0, e1, e2, e3, e4, e5⟩ := idx_r0 ⟨(i 0).val / 5000, by rw [hN]; omega⟩
    refine ⟨⟨(i 0).val / 5000, by rw [hN]; omega⟩, flush0_2 _, ?_⟩
    rw [mem_blk_r0]
    intro a
    match a with
    | ⟨0, _⟩ =>
      show win0_2.index ⟨(i 0).val / 5000, _⟩ (0 : Fin 2) * 5000 ≤ (i 0).val
        ∧ (i 0).val < win0_2.index ⟨(i 0).val / 5000, _⟩ (0 : Fin 2) * 5000 + 5000
      rw [e4]
      show (i 0).val / 5000 * 5000 ≤ (i 0).val ∧ (i 0).val < (i 0).val / 5000 * 5000 + 5000
      omega
    | ⟨1, _⟩ =>
      show win0_2.index ⟨(i 0).val / 5000, _⟩ (1 : Fin 2) * 128 ≤ (i 1).val
        ∧ (i 1).val < win0_2.index ⟨(i 0).val / 5000, _⟩ (1 : Fin 2) * 128 + 128
      rw [e5]
      omega

end Cert.KernelIdeal.Hand

end
-- ==== Proof.Body1.lean ====
/-
  The second region's body at a point of its block: the bias added down the rows of the aggregate block, the
  maximum with zero, then the product with the whole second weight matrix. Entry `(p, q)` is
  `Σ_k max (a[p,k] + b[0,k]) 0 · w[k,q]` over the 128 hidden columns (the bias enters as a 1×128 array).
-/
import proofs.«114802_j66829691125867_2_alg».proof.Proof.Gen.KernelIdeal.Skeleton
import proofs.«114802_j66829691125867_2_alg».proof.Proof.LibPlainDot
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- Entry `(p, q)` of what the second region's body stores. -/
theorem body1_apply (x0 : Vec Ideal S5000x128 .f32) (x2 : Vec Ideal S1x128 .f32) (x9 : Vec Ideal S128x40 .f32)
    (p : Fin 5000) (q : Fin 40) :
    k1_pay1 (F := Ideal) x0 x2 x9 (ix2 p q)
      = ∑ k : Fin 128, max (x0 (ix2 p k) + x2 (ix2 (0 : Fin 1) k)) (Ideal.ofBits .f32 0x00000000#32) * x9 (ix2 k q) := by
  refine (Cert.Lib.plain_matmul_zero_apply 5000 128 40 none
    (truncf .bf16 (maximumf (addf (shapeCast S5000x128 x0 shapeCasts_S5000x128_S5000x128)
        (broadcastTo S5000x128 (shapeCast S1x128 x2 shapeCasts_S1x128_S1x128) broadcasts_S1x128_S5000x128))
      (broadcast S5000x128 (Scalar.ofBits (F := Ideal) .f32 0x00000000#32))) bitsLt_bf16_f32)
    (truncf .bf16 x9 bitsLt_bf16_f32) p q).trans ?_
  refine Finset.sum_congr rfl fun k _ => ?_
  show max (shapeCast S5000x128 x0 shapeCasts_S5000x128_S5000x128 (ix2 p k)
      + broadcastTo S5000x128 (shapeCast S1x128 x2 shapeCasts_S1x128_S1x128) broadcasts_S1x128_S5000x128 (ix2 p k))
      (Ideal.ofBits .f32 0x00000000#32) * x9 (ix2 k q) = _
  rw [shapeCast_self, shapeCast_self, broadcastTo_1b_ab_apply]

end Cert.KernelIdeal.Hand

end
-- ==== Proof.Region1.lean ====
/-
  The second region's output array: with `a` the aggregate it is entered with, `b` the first bias as a 1×128 array
  and `w` the second weight matrix, the array ends holding `Σ_k max (a[r,k] + b[0,k]) 0 · w[k,j]` at `(r, j)`.

  Ten grid points; point `t` reads rows `5000 t … 5000 t + 4999` of the aggregate, the whole bias row and the whole
  weight matrix, and writes back the same rows of the output. As a row of the result depends only on the same row
  of the aggregate, what point `t` writes back is block `t` of the function of the whole arrays, and the ten row
  blocks tile the output. Stated at any contents `V` the region is entered with.
-/
import proofs.«114802_j66829691125867_2_alg».proof.Proof.Gen.KernelIdeal.Frame
import proofs.«114802_j66829691125867_2_alg».proof.Proof.Body1
import proofs.«114802_j66829691125867_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off_r1 : (![0, 0] : Fin 2 → Nat) = fun _ => 0 := funext fun a => by fin_cases a <;> rfl

/-- The second layer's dense stage on whole arrays, the bias a 1×128 array. -/
def dense1 (a : S50000x128.Idx → EReal) (w : S128x40.Idx → EReal) (b : S1x128.Idx → EReal) : S50000x40.Idx → EReal :=
  Cert.Spec.matProd 50000 128 40 (fun i => max (a i + b (ix2 (0 : Fin 1) (i 1))) (Ideal.ofBits .f32 0x00000000#32)) w

theorem dense1_apply (a : S50000x128.Idx → EReal) (w : S128x40.Idx → EReal) (b : S1x128.Idx → EReal) (r : Fin 50000) (q : Fin 40) :
    dense1 a w b (ix2 r q)
      = ∑ k : Fin 128, max (a (ix2 r k) + b (ix2 (0 : Fin 1) k)) (Ideal.ofBits .f32 0x00000000#32) * w (ix2 k q) := rfl

/-- The printed index maps over the grid: the aggregate and output windows move down the rows with the point, the weight
    and bias windows stay. -/
theorem idx_r1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the dense stage of the whole arrays. -/
theorem flushed_r1 (c : Dev nD) (t : Fin cfg1.N) :
    (dat1 V c).flushed 3 t = ((cfg1.win 3).blk t).view.read (Elt Ideal)
      (dense1 (V c main_v47) (V c main_arg5) (V c main_v48)) := by
  show (cfg1.win 3).cut (grid1.coords t) ((dat1 V c).after 3 t) = _
  rw [after1_3]
  unfold out1_3
  rw [View.canon_unit_zero zero_off_r1]
  simp only [View.ld_unit_zero (S := S5000x128) zero_off_r1, View.ld_unit_zero (S := S1x128) zero_off_r1,
    View.ld_unit_zero (S := S128x40) zero_off_r1]
  obtain ⟨e0, e1, e2, e3, e4, e5, e6, e7⟩ := idx_r1 t
  have ht : t.val < 10 := (show cfg1.N = 10 from N_1) ▸ t.isLt
  funext j
  revert j
  show ∀ j : S5000x40.Idx, k1_pay1 (F := Ideal) (iblk1 V c 0 t) (iblk1 V c 2 t) (iblk1 V c 1 t) j
    = dense1 (V c main_v47) (V c main_arg5) (V c main_v48) (((cfg1.win 3).blk t).view.emb j)
  intro j
  obtain ⟨p, q, rfl⟩ : ∃ (p : Fin 5000) (q : Fin 40), j = ix2 p q := ⟨j 0, j 1, eq_ix2 j⟩
  refine (body1_apply (iblk1 V c 0 t) (iblk1 V c 2 t) (iblk1 V c 1 t) p q).trans ?_
  have hp : p.val < 5000 := p.isLt
  have h3 : ((cfg1.win 3).blk t).view.emb (ix2 p q) = (ix2 (⟨t.val * 5000 + p.val, by omega⟩ : Fin 50000) q : S50000x40.Idx) := by
    funext a; apply Fin.ext
    match a with
    | ⟨0, _⟩ => show win1_3.index t (0 : Fin 2) * 5000 + 1 * p.val = t.val * 5000 + p.val; omega
    | ⟨1, _⟩ => show win1_3.index t (1 : Fin 2) * 40 + 1 * q.val = q.val; omega
  rw [h3, dense1_apply]
  refine Finset.sum_congr rfl fun k _ => ?_
  have h0 : ((cfg1.win 0).blk t).view.emb (ix2 p k) = (ix2 (⟨t.val * 5000 + p.val, by omega⟩ : Fin 50000) k : S50000x128.Idx) := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ((cfg1.win 1).blk t).view.emb (ix2 k q) = (ix2 k q : S128x40.Idx) := by
    funext a; apply Fin.ext
    match a with
    | ⟨0, _⟩ => show win1_1.index t (0 : Fin 2) * 128 + 1 * k.val = k.val; omega
    | ⟨1, _⟩ => show win1_1.index t (1 : Fin 2) * 40 + 1 * q.val = q.val; omega
  have h2 : ((cfg1.win 2).blk t).view.emb (ix2 (0 : Fin 1) k) = (ix2 (0 : Fin 1) k : S1x128.Idx) := by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  show FloatOps.mulf (F := Ideal) (φ := .f32)
      (FloatOps.maximumf (F := Ideal) (φ := .f32)
        (FloatOps.addf (F := Ideal) (φ := .f32) (V c main_v47 (((cfg1.win 0).blk t).view.emb (ix2 p k)))
          (V c main_v48 (((cfg1.win 2).blk t).view.emb (ix2 (0 : Fin 1) k))))
        (Ideal.ofBits .f32 0x00000000#32))
      (V c main_arg5 (((cfg1.win 1).blk t).view.emb (ix2 k q))) = _
  rw [h0, h1, h2]
  rfl

/-- An index of the output array is in point `t`'s block iff each coordinate is in the block's range on its axis. -/
theorem mem_blk_r1 (t : Fin cfg1.N) (i : S50000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v49).slice (win1_3.rect t)).set ↔ _
  rw [View.set_slice_whole, Rect.mem_set_unit]
  exact Iff.rfl

/-- THE SECOND REGION'S ARRAY after its run: the dense stage of the arrays it was entered with. -/
theorem arr_r1 (c : Dev nD) :
    (dat1 V c).arrAt 3 cfg1.N = dense1 (V c main_v47) (V c main_arg5) (V c main_v48) :=
  (dat1 V c).arrAt_eq_of_cover 3 _ (fun t _ => flushed_r1 V c t) fun i => by
    have hi0 : (i 0).val < 50000 := (i 0).isLt
    have hi1 : (i 1).val < 40 := (i 1).isLt
    have hN : cfg1.N = 10 := N_1
    obtain ⟨e0, e1, e2, e3, e4, e5, e6, e7⟩ := idx_r1 ⟨(i 0).val / 5000, by rw [hN]; omega⟩
    refine ⟨⟨(i 0).val / 5000, by rw [hN]; omega⟩, flush1_3 _, ?_⟩
    rw [mem_blk_r1]
    intro a
    match a with
    | ⟨0, _⟩ =>
      show win1_3.index ⟨(i 0).val / 5000, _⟩ (0 : Fin 2) * 5000 ≤ (i 0).val
        ∧ (i 0).val < win1_3.index ⟨(i 0).val / 5000, _⟩ (0 : Fin 2) * 5000 + 5000
      rw [e6]
      show (i 0).val / 5000 * 5000 ≤ (i 0).val ∧ (i 0).val < (i 0).val / 5000 * 5000 + 5000
      omega
    | ⟨1, _⟩ =>
      show win1_3.index ⟨(i 0).val / 5000, _⟩ (1 : Fin 2) * 40 ≤ (i 1).val
        ∧ (i 1).val < win1_3.index ⟨(i 0).val / 5000, _⟩ (1 : Fin 2) * 40 + 40
      rw [e7]
      omega

end Cert.KernelIdeal.Hand

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Body2.lean ====
/-
  The third region's body at a point of its block: the bias added down the rows, then the logarithm of the softmax
  along each row of 40 entries. With `X[p,c] = x[p,c] + b[0,c]`, `μ_p` the maximum of row `p` of `X` taken from `-∞`,
  entry `(p, q)` is `(X[p,q] - μ_p) - log Σ_k exp (X[p,k] - μ_p)`.
  The row maximum and the row sum are lane reductions of the block; each is spread back over its row through a
  `[5000] → [5000,1] → [5000,40]` cast and broadcast.
-/
import proofs.«114802_j66829691125867_2_alg».proof.Proof.Gen.KernelIdeal.Skeleton
import proofs.«114802_j66829691125867_2_alg».proof.Proof.Spec
import proofs.«114802_j66829691125867_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The index of a `[5000, 40]` block that the reduction over its columns visits at row `p`, position `k`. -/
theorem lift_row (p : Fin 5000) (k : Fin 40) :
    reduces_S5000x40_S5000.lift (ix1 p) k = (ix2 p k : S5000x40.Idx) := by
  funext a
  apply Fin.ext
  match a with
  | ⟨0, _⟩ => rfl
  | ⟨1, _⟩ => rfl

/-- The body's tail on an already biased block `X`: the printed operations from the row maximum on. -/
def lsmTail (X : FVec Ideal S5000x40 .f32) : FVec Ideal S5000x40 .f32 :=
  subf (subf X (broadcastTo S5000x40 (shapeCast S5000x1
      (multiReduction .maximumf [1] S5000 X 0xFF800000#32 reduces_S5000x40_S5000 (.inl rfl) rfl) shapeCasts_S5000_S5000x1)
      broadcasts_S5000x1_S5000x40))
    (broadcastTo S5000x40 (log (shapeCast S5000x1
      (multiReduction .add [1] S5000 (exp (subf X (broadcastTo S5000x40 (shapeCast S5000x1
          (multiReduction .maximumf [1] S5000 X 0xFF800000#32 reduces_S5000x40_S5000 (.inl rfl) rfl) shapeCasts_S5000_S5000x1)
          broadcasts_S5000x1_S5000x40))) 0x00000000#32 reduces_S5000x40_S5000 (.inl rfl) rfl) shapeCasts_S5000_S5000x1))
      broadcasts_S5000x1_S5000x40)

/-- The row maximum, read: the fold of `max` over the row from the start word. -/
theorem rowmax_read (X : FVec Ideal S5000x40 .f32) (p : Fin 5000) :
    multiReduction .maximumf [1] S5000 X 0xFF800000#32 reduces_S5000x40_S5000 (.inl rfl) rfl (ix1 p)
      = Cert.Spec.rowMax (Ideal.ofBits .f32 0xFF800000#32) (Cert.Spec.rowOf X p) := by
  refine (Ideal.multiReduction_maximumf_single X 0xFF800000#32 reduces_S5000x40_S5000 (.inl rfl) rfl (ix1 p)).trans ?_
  unfold Cert.Spec.rowMax Cert.Spec.rowOf
  refine congrArg (fun f => (Finset.univ : Finset (Fin 40)).fold max (Ideal.ofBits .f32 0xFF800000#32) f) (funext fun k => ?_)
  exact congrArg X (lift_row p k)

/-- A per-row quantity spread back over its row. -/
theorem spread_read (μ : FVec Ideal S5000 .f32) (p : Fin 5000) (c : Fin 40) :
    broadcastTo S5000x40 (shapeCast S5000x1 μ shapeCasts_S5000_S5000x1) broadcasts_S5000x1_S5000x40 (ix2 p c) = μ (ix1 p) :=
  (Cert.Lib.broadcastTo_a1_ab_apply _ broadcasts_S5000x1_S5000x40 p c).trans
    (Cert.Lib.shapeCast_a_a1_apply μ shapeCasts_S5000_S5000x1 p 0)

/-- The row sum, read: the sum over the row. -/
theorem rowsum_read (E : FVec Ideal S5000x40 .f32) (p : Fin 5000) :
    multiReduction .add [1] S5000 E 0x00000000#32 reduces_S5000x40_S5000 (.inl rfl) rfl (ix1 p) = ∑ k : Fin 40, E (ix2 p k) := by
  refine (Ideal.multiReduction_add_single E 0x00000000#32 reduces_S5000x40_S5000 (.inl rfl) rfl (ix1 p)).trans ?_
  exact Finset.sum_congr rfl fun k _ => congrArg E (lift_row p k)

/-- The tail on a biased block is the row-wise logarithm of the softmax. -/
theorem lsmTail_apply (X : FVec Ideal S5000x40 .f32) (p : Fin 5000) (q : Fin 40) :
    lsmTail X (ix2 p q) = Cert.Spec.logSoftmax 5000 40 (Ideal.ofBits .f32 0xFF800000#32) X (ix2 p q) := by
  rw [Cert.Spec.logSoftmax_apply]
  show (X (ix2 p q) - broadcastTo S5000x40 (shapeCast S5000x1
        (multiReduction .maximumf [1] S5000 X 0xFF800000#32 reduces_S5000x40_S5000 (.inl rfl) rfl) shapeCasts_S5000_S5000x1)
        broadcasts_S5000x1_S5000x40 (ix2 p q))
      - broadcastTo S5000x40 (log (shapeCast S5000x1
        (multiReduction .add [1] S5000 (exp (subf X (broadcastTo S5000x40 (shapeCast S5000x1
            (multiReduction .maximumf [1] S5000 X 0xFF800000#32 reduces_S5000x40_S5000 (.inl rfl) rfl) shapeCasts_S5000_S5000x1)
            broadcasts_S5000x1_S5000x40))) 0x00000000#32 reduces_S5000x40_S5000 (.inl rfl) rfl) shapeCasts_S5000_S5000x1))
        broadcasts_S5000x1_S5000x40 (ix2 p q) = _
  rw [spread_read, rowmax_read, Cert.Lib.broadcastTo_a1_ab_apply]
  show _ - Ideal.log (shapeCast S5000x1
        (multiReduction .add [1] S5000 (exp (subf X (broadcastTo S5000x40 (shapeCast S5000x1
            (multiReduction .maximumf [1] S5000 X 0xFF800000#32 reduces_S5000x40_S5000 (.inl rfl) rfl) shapeCasts_S5000_S5000x1)
            broadcasts_S5000x1_S5000x40))) 0x00000000#32 reduces_S5000x40_S5000 (.inl rfl) rfl) shapeCasts_S5000_S5000x1
        (ix2 p (0 : Fin 1))) = _
  rw [Cert.Lib.shapeCast_a_a1_apply, rowsum_read]
  refine congrArg (fun s => (X (ix2 p q) - Cert.Spec.rowMax (Ideal.ofBits .f32 0xFF800000#32) (Cert.Spec.rowOf X p)) - Ideal.log s)
    (Finset.sum_congr rfl fun k _ => ?_)
  show Ideal.exp (X (ix2 p k) - broadcastTo S5000x40 (shapeCast S5000x1
        (multiReduction .maximumf [1] S5000 X 0xFF800000#32 reduces_S5000x40_S5000 (.inl rfl) rfl) shapeCasts_S5000_S5000x1)
        broadcasts_S5000x1_S5000x40 (ix2 p k)) = _
  rw [spread_read, rowmax_read]

/-- The body is the tail on the biased block. -/
theorem body2_eq (x0 : Vec Ideal S5000x40 .f32) (x2 : Vec Ideal S1x40 .f32) :
    k2_pay1 (F := Ideal) x0 x2 = lsmTail (addf (shapeCast S5000x40 x0 shapeCasts_S5000x40_S5000x40)
      (broadcastTo S5000x40 (shapeCast S1x40 x2 shapeCasts_S1x40_S1x40) broadcasts_S1x40_S5000x40)) := rfl

/-- The biased block, read. -/
theorem biased_eq (x0 : Vec Ideal S5000x40 .f32) (x2 : Vec Ideal S1x40 .f32) :
    (addf (shapeCast S5000x40 x0 shapeCasts_S5000x40_S5000x40)
      (broadcastTo S5000x40 (shapeCast S1x40 x2 shapeCasts_S1x40_S1x40) broadcasts_S1x40_S5000x40) : FVec Ideal S5000x40 .f32)
      = fun i => x0 i + x2 (ix2 (0 : Fin 1) (i 1)) := by
  funext i
  obtain ⟨a, c, rfl⟩ : ∃ (a : Fin 5000) (c : Fin 40), i = ix2 a c := ⟨i 0, i 1, eq_ix2 i⟩
  show shapeCast S5000x40 x0 shapeCasts_S5000x40_S5000x40 (ix2 a c)
      + broadcastTo S5000x40 (shapeCast S1x40 x2 shapeCasts_S1x40_S1x40) broadcasts_S1x40_S5000x40 (ix2 a c) = _
  rw [shapeCast_self, shapeCast_self, broadcastTo_1b_ab_apply]

/-- Entry `(p, q)` of what the third region's body stores. -/
theorem body2_apply (x0 : Vec Ideal S5000x40 .f32) (x2 : Vec Ideal S1x40 .f32) (p : Fin 5000) (q : Fin 40) :
    k2_pay1 (F := Ideal) x0 x2 (ix2 p q)
      = Cert.Spec.logSoftmax 5000 40 (Ideal.ofBits .f32 0xFF800000#32) (fun i => x0 i + x2 (ix2 (0 : Fin 1) (i 1))) (ix2 p q) := by
  rw [body2_eq, lsmTail_apply, biased_eq]

end Cert.KernelIdeal.Hand

end
-- ==== Proof.Region2.lean ====
/-
  The third region's output array: with `a` the aggregate it is entered with and `b` the second bias as a 1×40 array,
  the array ends holding the row-wise logarithm of the softmax of `a[r,j] + b[0,j]`.

  Ten grid points; point `t` reads rows `5000 t … 5000 t + 4999` of the aggregate and the whole bias row, and writes
  back the same rows of the output. The logarithm of the softmax at `(r, j)` depends on row `r` only, so what
  point `t` writes back is block `t` of the function of the whole arrays, and the ten row blocks tile the output.
  Stated at any contents `V` the region is entered with.
-/
import proofs.«114802_j66829691125867_2_alg».proof.Proof.Gen.KernelIdeal.Frame
import proofs.«114802_j66829691125867_2_alg».proof.Proof.Body2
import proofs.«114802_j66829691125867_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off_r2 : (![0, 0] : Fin 2 → Nat) = fun _ => 0 := funext fun a => by fin_cases a <;> rfl

/-- The last stage on whole arrays, the bias a 1×40 array. -/
def lsm2 (a : S50000x40.Idx → EReal) (b : S1x40.Idx → EReal) : S50000x40.Idx → EReal :=
  Cert.Spec.logSoftmax 50000 40 (Ideal.ofBits .f32 0xFF800000#32) (fun i => a i + b (ix2 (0 : Fin 1) (i 1)))

/-- The printed index maps over the grid: the aggregate and output windows move down the rows with the point, the bias
    window stays. -/
theorem idx_r2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the last stage of the whole arrays. -/
theorem flushed_r2 (c : Dev nD) (t : Fin cfg2.N) :
    (dat2 V c).flushed 2 t = ((cfg2.win 2).blk t).view.read (Elt Ideal) (lsm2 (V c main_v62) (V c main_v63)) := by
  show (cfg2.win 2).cut (grid2.coords t) ((dat2 V c).after 2 t) = _
  rw [after2_2]
  unfold out2_2
  rw [View.canon_unit_zero zero_off_r2]
  simp only [View.ld_unit_zero (S := S5000x40) zero_off_r2, View.ld_unit_zero (S := S1x40) zero_off_r2]
  obtain ⟨e0, e1, e2, e3, e4, e5⟩ := idx_r2 t
  have ht : t.val < 10 := (show cfg2.N = 10 from N_2) ▸ t.isLt
  funext j
  revert j
  show ∀ j : S5000x40.Idx, k2_pay1 (F := Ideal) (iblk2 V c 0 t) (iblk2 V c 1 t) j
    = lsm2 (V c main_v62) (V c main_v63) (((cfg2.win 2).blk t).view.emb j)
  intro j
  obtain ⟨p, q, rfl⟩ : ∃ (p : Fin 5000) (q : Fin 40), j = ix2 p q := ⟨j 0, j 1, eq_ix2 j⟩
  refine (body2_apply (iblk2 V c 0 t) (iblk2 V c 1 t) p q).trans ?_
  have hp : p.val < 5000 := p.isLt
  have h2 : ((cfg2.win 2).blk t).view.emb (ix2 p q) = (ix2 (⟨t.val * 5000 + p.val, by omega⟩ : Fin 50000) q : S50000x40.Idx) := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [h2]
  unfold lsm2
  refine Cert.Spec.logSoftmax_row_congr _ _ _ p ⟨t.val * 5000 + p.val, by omega⟩ (fun k => ?_) q
  have h0 : ((cfg2.win 0).blk t).view.emb (ix2 p k) = (ix2 (⟨t.val * 5000 + p.val, by omega⟩ : Fin 50000) k : S50000x40.Idx) := by
    funext a; apply Fin.ext
    match a with
    | ⟨0, _⟩ => show win2_0.index t (0 : Fin 2) * 5000 + 1 * p.val = t.val * 5000 + p.val; omega
    | ⟨1, _⟩ => show win2_0.index t (1 : Fin 2) * 40 + 1 * k.val = k.val; omega
  have h1 : ((cfg2.win 1).blk t).view.emb (ix2 (0 : Fin 1) k) = (ix2 (0 : Fin 1) k : S1x40.Idx) := by
    funext a; apply Fin.ext
    match a with
    | ⟨0, _⟩ => show win2_1.index t (0 : Fin 2) * 1 + 1 * 0 = 0; omega
    | ⟨1, _⟩ => show win2_1.index t (1 : Fin 2) * 40 + 1 * k.val = k.val; omega
  show FloatOps.addf (F := Ideal) (φ := .f32) (V c main_v62 (((cfg2.win 0).blk t).view.emb (ix2 p k)))
      (V c main_v63 (((cfg2.win 1).blk t).view.emb (ix2 (0 : Fin 1) k)))
    = FloatOps.addf (F := Ideal) (φ := .f32) (V c main_v62 (ix2 (⟨t.val * 5000 + p.val, by omega⟩ : Fin 50000) k))
      (V c main_v63 (ix2 (0 : Fin 1) k))
  rw [h0, h1]

/-- An index of the output array is in point `t`'s block iff each coordinate is in the block's range on its axis. -/
theorem mem_blk_r2 (t : Fin cfg2.N) (i : S50000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v64).slice (win2_2.rect t)).set ↔ _
  rw [View.set_slice_whole, Rect.mem_set_unit]
  exact Iff.rfl

/-- THE THIRD REGION'S ARRAY after its run: the last stage of the arrays it was entered with. -/
theorem arr_r2 (c : Dev nD) :
    (dat2 V c).arrAt 2 cfg2.N = lsm2 (V c main_v62) (V c main_v63) :=
  (dat2 V c).arrAt_eq_of_cover 2 _ (fun t _ => flushed_r2 V c t) fun i => by
    have hi0 : (i 0).val < 50000 := (i 0).isLt
    have hi1 : (i 1).val < 40 := (i 1).isLt
    have hN : cfg2.N = 10 := N_2
    obtain ⟨e0, e1, e2, e3, e4, e5⟩ := idx_r2 ⟨(i 0).val / 5000, by rw [hN]; omega⟩
    refine ⟨⟨(i 0).val / 5000, by rw [hN]; omega⟩, flush2_2 _, ?_⟩
    rw [mem_blk_r2]
    intro a
    match a with
    | ⟨0, _⟩ =>
      show win2_2.index ⟨(i 0).val / 5000, _⟩ (0 : Fin 2) * 5000 ≤ (i 0).val
        ∧ (i 0).val < win2_2.index ⟨(i 0).val / 5000, _⟩ (0 : Fin 2) * 5000 + 5000
      rw [e4]
      show (i 0).val / 5000 * 5000 ≤ (i 0).val ∧ (i 0).val < (i 0).val / 5000 * 5000 + 5000
      omega
    | ⟨1, _⟩ =>
      show win2_2.index ⟨(i 0).val / 5000, _⟩ (1 : Fin 2) * 40 ≤ (i 1).val
        ∧ (i 1).val < win2_2.index ⟨(i 0).val / 5000, _⟩ (1 : Fin 2) * 40 + 40
      rw [e5]
      omega

end Cert.KernelIdeal.Hand

end
-- ==== Proof.KernelChain.lean ====
/-
  The idealized kernel's host side, read.

  Around its three regions @main computes, from the edge list `x1` (two rows of 800000 node indices) and the edge
  weights `x2`: the source and target indices with one self loop per node appended (`rowK`, `colK`, 850000 entries), the
  weights with a one per self loop (`wK`), each node's weighted in-degree by a scatter-add (`degK`), its inverse
  square root where the degree is positive (`dinvK`), and the symmetric normalisation
  `norm[e] = dinv[row e] · w[e] · dinv[col e]` (`normK`); a negative index is wrapped by the number of nodes before each
  gather (`wrapK`). After each dense stage `h` it aggregates: rows of `h` gathered at the sources, scaled by the norm,
  scatter-added at the targets into zeros (`aggK128`, `aggK40`).

  Each of the five host stretches is first read for an arbitrary valuation `U` of the buffers it starts from — what it
  leaves in the buffers it writes, as these functions of what it finds, and that it leaves the other buffers alone. Then the
  frame module's fold `W0 … W8` of the buffer contents through @main's eight segments is read at the few buffers that
  matter: the indices and the norm (carried unchanged through every later segment), the arguments, and each region's output
  array, which the region modules give as a function of the region's entry contents. The result buffer ends at
  `kernelValue` of the seven arguments.
-/
import proofs.«114802_j66829691125867_2_alg».proof.Proof.Gen.KernelIdeal.Frame
import proofs.«114802_j66829691125867_2_alg».proof.Proof.Region0
import proofs.«114802_j66829691125867_2_alg».proof.Proof.Region1
import proofs.«114802_j66829691125867_2_alg».proof.Proof.Region2
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The host operations as functions of what they read -/

section Pure

variable {F : FTy → Type} [FloatOps F]

/-- Source indices: row 0 of the edge list, then one self loop per node. -/
def rowK (x1 : (⟨S2x800000, .i32⟩ : BufTy).Contents (Elt F)) : (⟨S850000, .i32⟩ : BufTy).Contents (Elt F) :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0

/-- Target indices: row 1 of the edge list, then one self loop per node. -/
def colK (x1 : (⟨S2x800000, .i32⟩ : BufTy).Contents (Elt F)) : (⟨S850000, .i32⟩ : BufTy).Contents (Elt F) :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0

/-- A scalar word spread over the 50000 nodes. -/
def nodesK (b : BitVec 32) : (⟨S50000, .f32⟩ : BufTy).Contents (Elt F) :=
  broadcastInDim S50000 ![] bcast_S_S50000 (constant S_ .f32 b : (⟨S_, .f32⟩ : BufTy).Contents (Elt F))

/-- Edge weights, then a one per self loop. -/
def wK (x2 : (⟨S800000, .f32⟩ : BufTy).Contents (Elt F)) : (⟨S850000, .f32⟩ : BufTy).Contents (Elt F) :=
  concatenate S850000 0 [⟨S800000, x2⟩, ⟨S50000, nodesK (F := F) 0x3F800000#32⟩] concatenates_S800000_S50000_S850000_d0

/-- An index list as the one-column index array a gather or scatter takes. -/
def colIdxK (idx : (⟨S850000, .i32⟩ : BufTy).Contents (Elt F)) : (⟨S850000x1, .i32⟩ : BufTy).Contents (Elt F) :=
  broadcastInDim S850000x1 ![0] bcast_S850000_S850000x1_0 idx

/-- Each node's weighted in-degree: the weights scatter-added at the targets into zeros. -/
def degK (col : (⟨S850000, .i32⟩ : BufTy).Contents (Elt F)) (w : (⟨S850000, .f32⟩ : BufTy).Contents (Elt F)) : (⟨S50000, .f32⟩ : BufTy).Contents (Elt F) :=
  Host.scatterAdd scatter_S50000_S850000x1_S850000_n_0_0_1 (nodesK (F := F) 0x00000000#32) (colIdxK (F := F) col) w

/-- Where the degree is positive. -/
def posK (deg : (⟨S50000, .f32⟩ : BufTy).Contents (Elt F)) : (⟨S50000, .i1⟩ : BufTy).Contents (Elt F) :=
  cmpf .ogt deg (nodesK (F := F) 0x00000000#32)

/-- The inverse square root of the degree raised to at least the small word. -/
def rsqK (deg : (⟨S50000, .f32⟩ : BufTy).Contents (Elt F)) : (⟨S50000, .f32⟩ : BufTy).Contents (Elt F) :=
  Host.rsqrt (maximumf deg (nodesK (F := F) 0x2B8CBCCC#32))

/-- The zero scalar. -/
def zeroK : (⟨S_, .f32⟩ : BufTy).Contents (Elt F) := constant S_ .f32 0x00000000#32

/-- The inverse square root of the degree where it is positive, and `z` elsewhere. -/
def dinvK (deg z : (⟨S50000, .f32⟩ : BufTy).Contents (Elt F)) : (⟨S50000, .f32⟩ : BufTy).Contents (Elt F) :=
  select (posK (F := F) deg) (rsqK (F := F) deg) z

/-- A negative index wrapped by the number of nodes. -/
def wrapK (idx : (⟨S850000, .i32⟩ : BufTy).Contents (Elt F)) : (⟨S850000, .i32⟩ : BufTy).Contents (Elt F) :=
  select (cmpi .slt idx (broadcastInDim S850000 ![] bcast_S_S850000 (constantI S_ 32 0#32)))
    (addi idx (broadcastInDim S850000 ![] bcast_S_S850000 (constantI S_ 32 50000#32))) idx

/-- The symmetric normalisation of each edge: `dinv[row e] · w[e] · dinv[col e]`. -/
def normK (dinv : (⟨S50000, .f32⟩ : BufTy).Contents (Elt F)) (row col : (⟨S850000, .i32⟩ : BufTy).Contents (Elt F)) (w : (⟨S850000, .f32⟩ : BufTy).Contents (Elt F)) : (⟨S850000, .f32⟩ : BufTy).Contents (Elt F) :=
  mulf (mulf (Host.gather gather_S50000_S850000x1_S850000_n_0_n_n_0_1_1 dinv (colIdxK (F := F) (wrapK (F := F) row))) w)
    (Host.gather gather_S50000_S850000x1_S850000_n_0_n_n_0_1_1 dinv (colIdxK (F := F) (wrapK (F := F) col)))

/-- The aggregation of a 128-column stage over the edges: rows gathered at the sources, scaled by the norm, scatter-added at the
    targets into zeros. -/
def aggK128 (h : (⟨S50000x128, .f32⟩ : BufTy).Contents (Elt F)) (row col : (⟨S850000, .i32⟩ : BufTy).Contents (Elt F)) (norm : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32 : (⟨S_, .f32⟩ : BufTy).Contents (Elt F)))
    (colIdxK (F := F) col)
    (mulf (Host.gather gather_S50000x128_S850000x1_S850000x128_1_0_n_n_0_1_1128 h (colIdxK (F := F) (wrapK (F := F) row)))
      (broadcastInDim S850000x128 ![0, 1] bcast_S850000x1_S850000x128_0_1 (broadcastInDim S850000x1 ![0] bcast_S850000_S850000x1_0 norm)))

/-- The aggregation of a 40-column stage over the edges. -/
def aggK40 (h : (⟨S50000x40, .f32⟩ : BufTy).Contents (Elt F)) (row col : (⟨S850000, .i32⟩ : BufTy).Contents (Elt F)) (norm : (⟨S850000, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant S_ .f32 0x00000000#32 : (⟨S_, .f32⟩ : BufTy).Contents (Elt F)))
    (colIdxK (F := F) col)
    (mulf (Host.gather gather_S50000x40_S850000x1_S850000x40_1_0_n_n_0_1_140 h (colIdxK (F := F) (wrapK (F := F) row)))
      (broadcastInDim S850000x40 ![0, 1] bcast_S850000x1_S850000x40_0_1 (broadcastInDim S850000x1 ![0] bcast_S850000_S850000x1_0 norm)))

/-- The zero the inverse square root is replaced by, spread over the nodes (the programs pass the scalar through an identity first). -/
def whereZeroK (z0 : (⟨S_, .f32⟩ : BufTy).Contents (Elt F)) : (⟨S50000, .f32⟩ : BufTy).Contents (Elt F) :=
  broadcastInDim S50000 ![] bcast_S_S50000 (id z0)

/-- The edges' normalisation from the edge list and the weights. -/
def normOfK (x1 : (⟨S2x800000, .i32⟩ : BufTy).Contents (Elt F)) (x2 : (⟨S800000, .f32⟩ : BufTy).Contents (Elt F)) : (⟨S850000, .f32⟩ : BufTy).Contents (Elt F) :=
  normK (F := F) (dinvK (F := F) (degK (F := F) (colK (F := F) x1) (wK (F := F) x2))
      (whereZeroK (F := F) (zeroK (F := F))))
    (rowK (F := F) x1) (colK (F := F) x1) (wK (F := F) x2)

end Pure

/-- The kernel's result as one function of its seven arguments: product, aggregate, bias and positive part and product,
    aggregate, bias and row-wise logarithm of the softmax. -/
def kernelValue (x0 : (⟨S50000x512, .f32⟩ : BufTy).Contents (Elt Ideal)) (x1 : (⟨S2x800000, .i32⟩ : BufTy).Contents (Elt Ideal)) (x2 : (⟨S800000, .f32⟩ : BufTy).Contents (Elt Ideal))
    (x3 : (⟨S512x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    (⟨S50000x40, .f32⟩ : BufTy).Contents (Elt Ideal) :=
  lsm2 (aggK40 (F := Ideal) (dense1 (aggK128 (F := Ideal) (Cert.Spec.matProd 50000 512 128 x0 x3)
        (rowK (F := Ideal) x1) (colK (F := Ideal) x1) (normOfK (F := Ideal) x1 x2)) x5
      (shapeCast S1x128 x4 shapeCasts_S128_S1x128))
      (rowK (F := Ideal) x1) (colK (F := Ideal) x1) (normOfK (F := Ideal) x1 x2))
    (shapeCast S1x40 x6 shapeCasts_S40_S1x40)

/-! ## Each host stretch, for any contents `U` it starts from -/

abbrev Val := Valuation τ sig (Elt Ideal)

/-! ### The 22 operations before the call of the select helper -/

/-- The source indices. -/
theorem k0_row (U : Val) : after hostOps0 U (Proc.devRef .tc main_v5) = rowK (F := Ideal) (U (Proc.devRef .tc main_arg1)) := by
  after_results
  rfl

/-- The target indices. -/
theorem k0_col (U : Val) : after hostOps0 U (Proc.devRef .tc main_v6) = colK (F := Ideal) (U (Proc.devRef .tc main_arg1)) := by
  after_results
  rfl

/-- The weights with the self loops' ones. -/
theorem k0_w (U : Val) : after hostOps0 U (Proc.devRef .tc main_v8) = wK (F := Ideal) (U (Proc.devRef .tc main_arg2)) := by
  after_results
  rfl

/-- Where the degree is positive. -/
theorem k0_pos (U : Val) : after hostOps0 U (Proc.devRef .tc main_v13) = posK (F := Ideal) (degK (F := Ideal) (colK (F := Ideal) (U (Proc.devRef .tc main_arg1))) (wK (F := Ideal) (U (Proc.devRef .tc main_arg2)))) := by
  after_results
  rfl

/-- The inverse square root of the raised degree. -/
theorem k0_rsqrt (U : Val) : after hostOps0 U (Proc.devRef .tc main_v16) = rsqK (F := Ideal) (degK (F := Ideal) (colK (F := Ideal) (U (Proc.devRef .tc main_arg1))) (wK (F := Ideal) (U (Proc.devRef .tc main_arg2)))) := by
  after_results
  rfl

/-- The zero scalar the select helper is called with. -/
theorem k0_zero (U : Val) : after hostOps0 U (Proc.devRef .tc main_cst_3) = (zeroK (F := Ideal)) := by
  after_results
  rfl

theorem k0_keep_main_arg0 (U : Val) : after hostOps0 U (Proc.devRef .tc main_arg0) = U (Proc.devRef .tc main_arg0) := by
  after_results_simp
theorem k0_keep_main_arg3 (U : Val) : after hostOps0 U (Proc.devRef .tc main_arg3) = U (Proc.devRef .tc main_arg3) := by
  after_results_simp
theorem k0_keep_main_arg4 (U : Val) : after hostOps0 U (Proc.devRef .tc main_arg4) = U (Proc.devRef .tc main_arg4) := by
  after_results_simp
theorem k0_keep_main_arg5 (U : Val) : after hostOps0 U (Proc.devRef .tc main_arg5) = U (Proc.devRef .tc main_arg5) := by
  after_results_simp
theorem k0_keep_main_arg6 (U : Val) : after hostOps0 U (Proc.devRef .tc main_arg6) = U (Proc.devRef .tc main_arg6) := by
  after_results_simp

/-! ### The select helper's 3 operations -/

/-- The selected inverse square root. -/
theorem k01_dinv (U : Val) : after hostOps0_1 U (Proc.devRef .tc main_v17) = select (U (Proc.devRef .tc main_v13)) (U (Proc.devRef .tc main_v16)) (whereZeroK (F := Ideal) (U (Proc.devRef .tc main_cst_3))) := by
  after_results_simp
  rfl

theorem k01_keep_main_v5 (U : Val) : after hostOps0_1 U (Proc.devRef .tc main_v5) = U (Proc.devRef .tc main_v5) := by
  after_results_simp
theorem k01_keep_main_v6 (U : Val) : after hostOps0_1 U (Proc.devRef .tc main_v6) = U (Proc.devRef .tc main_v6) := by
  after_results_simp
theorem k01_keep_main_v8 (U : Val) : after hostOps0_1 U (Proc.devRef .tc main_v8) = U (Proc.devRef .tc main_v8) := by
  after_results_simp
theorem k01_keep_main_arg0 (U : Val) : after hostOps0_1 U (Proc.devRef .tc main_arg0) = U (Proc.devRef .tc main_arg0) := by
  after_results_simp
theorem k01_keep_main_arg3 (U : Val) : after hostOps0_1 U (Proc.devRef .tc main_arg3) = U (Proc.devRef .tc main_arg3) := by
  after_results_simp
theorem k01_keep_main_arg4 (U : Val) : after hostOps0_1 U (Proc.devRef .tc main_arg4) = U (Proc.devRef .tc main_arg4) := by
  after_results_simp
theorem k01_keep_main_arg5 (U : Val) : after hostOps0_1 U (Proc.devRef .tc main_arg5) = U (Proc.devRef .tc main_arg5) := by
  after_results_simp
theorem k01_keep_main_arg6 (U : Val) : after hostOps0_1 U (Proc.devRef .tc main_arg6) = U (Proc.devRef .tc main_arg6) := by
  after_results_simp

/-! ### The 20 operations up to the first region -/

/-- The edges' normalisation. -/
theorem k02_norm (U : Val) : after hostOps0_2 U (Proc.devRef .tc main_v33) = normK (F := Ideal) (U (Proc.devRef .tc main_v17)) (U (Proc.devRef .tc main_v5)) (U (Proc.devRef .tc main_v6)) (U (Proc.devRef .tc main_v8)) := by
  after_results_simp
  rfl

theorem k02_keep_main_v5 (U : Val) : after hostOps0_2 U (Proc.devRef .tc main_v5) = U (Proc.devRef .tc main_v5) := by
  after_results_simp
theorem k02_keep_main_v6 (U : Val) : after hostOps0_2 U (Proc.devRef .tc main_v6) = U (Proc.devRef .tc main_v6) := by
  after_results_simp
theorem k02_keep_main_arg0 (U : Val) : after hostOps0_2 U (Proc.devRef .tc main_arg0) = U (Proc.devRef .tc main_arg0) := by
  after_results_simp
theorem k02_keep_main_arg3 (U : Val) : after hostOps0_2 U (Proc.devRef .tc main_arg3) = U (Proc.devRef .tc main_arg3) := by
  after_results_simp
theorem k02_keep_main_arg4 (U : Val) : after hostOps0_2 U (Proc.devRef .tc main_arg4) = U (Proc.devRef .tc main_arg4) := by
  after_results_simp
theorem k02_keep_main_arg5 (U : Val) : after hostOps0_2 U (Proc.devRef .tc main_arg5) = U (Proc.devRef .tc main_arg5) := by
  after_results_simp
theorem k02_keep_main_arg6 (U : Val) : after hostOps0_2 U (Proc.devRef .tc main_arg6) = U (Proc.devRef .tc main_arg6) := by
  after_results_simp

/-! ### The 17 operations between the first and the second region -/

/-- The first stage aggregated over the edges. -/
theorem k1_agg (U : Val) : after hostOps1 U (Proc.devRef .tc main_v47) = aggK128 (F := Ideal) (U (Proc.devRef .tc main_v34)) (U (Proc.devRef .tc main_v5)) (U (Proc.devRef .tc main_v6)) (U (Proc.devRef .tc main_v33)) := by
  after_results_simp
  rfl

/-- The first bias as a 1×128 array. -/
theorem k1_bias (U : Val) : after hostOps1 U (Proc.devRef .tc main_v48) = shapeCast S1x128 (U (Proc.devRef .tc main_arg4)) shapeCasts_S128_S1x128 := by
  after_results_simp
  rfl

theorem k1_keep_main_v5 (U : Val) : after hostOps1 U (Proc.devRef .tc main_v5) = U (Proc.devRef .tc main_v5) := by
  after_results_simp
theorem k1_keep_main_v6 (U : Val) : after hostOps1 U (Proc.devRef .tc main_v6) = U (Proc.devRef .tc main_v6) := by
  after_results_simp
theorem k1_keep_main_v33 (U : Val) : after hostOps1 U (Proc.devRef .tc main_v33) = U (Proc.devRef .tc main_v33) := by
  after_results_simp
theorem k1_keep_main_arg5 (U : Val) : after hostOps1 U (Proc.devRef .tc main_arg5) = U (Proc.devRef .tc main_arg5) := by
  after_results_simp
theorem k1_keep_main_arg6 (U : Val) : after hostOps1 U (Proc.devRef .tc main_arg6) = U (Proc.devRef .tc main_arg6) := by
  after_results_simp

/-! ### The 17 operations between the second and the third region -/

/-- The second stage aggregated over the edges. -/
theorem k2_agg (U : Val) : after hostOps2 U (Proc.devRef .tc main_v62) = aggK40 (F := Ideal) (U (Proc.devRef .tc main_v49)) (U (Proc.devRef .tc main_v5)) (U (Proc.devRef .tc main_v6)) (U (Proc.devRef .tc main_v33)) := by
  after_results_simp
  rfl

/-- The second bias as a 1×40 array. -/
theorem k2_bias (U : Val) : after hostOps2 U (Proc.devRef .tc main_v63) = shapeCast S1x40 (U (Proc.devRef .tc main_arg6)) shapeCasts_S40_S1x40 := by
  after_results_simp
  rfl

/-! ## The boundary contents, read -/

section Chain

variable (m : (ℓ : Loc nD τ sig) → Buf (Elt Ideal) ℓ) (ρ : Dev nD → PrngReg) (c : Dev nD)

/-! ### After the first stretch -/
theorem w1_row : W1 m ρ c (Proc.devRef .tc main_v5) = rowK (F := Ideal) (m ((c.tc : Thread nD τ).loc main_arg1)) := k0_row (W0 m ρ c)
theorem w1_col : W1 m ρ c (Proc.devRef .tc main_v6) = colK (F := Ideal) (m ((c.tc : Thread nD τ).loc main_arg1)) := k0_col (W0 m ρ c)
theorem w1_w : W1 m ρ c (Proc.devRef .tc main_v8) = wK (F := Ideal) (m ((c.tc : Thread nD τ).loc main_arg2)) := k0_w (W0 m ρ c)
theorem w1_pos : W1 m ρ c (Proc.devRef .tc main_v13) = posK (F := Ideal) (degK (F := Ideal) (colK (F := Ideal) (m ((c.tc : Thread nD τ).loc main_arg1))) (wK (F := Ideal) (m ((c.tc : Thread nD τ).loc main_arg2)))) := k0_pos (W0 m ρ c)
theorem w1_rsqrt : W1 m ρ c (Proc.devRef .tc main_v16) = rsqK (F := Ideal) (degK (F := Ideal) (colK (F := Ideal) (m ((c.tc : Thread nD τ).loc main_arg1))) (wK (F := Ideal) (m ((c.tc : Thread nD τ).loc main_arg2)))) := k0_rsqrt (W0 m ρ c)
theorem w1_zero : W1 m ρ c (Proc.devRef .tc main_cst_3) = (zeroK (F := Ideal)) := k0_zero (W0 m ρ c)
theorem w1_arg0 : W1 m ρ c (Proc.devRef .tc main_arg0) = (m ((c.tc : Thread nD τ).loc main_arg0)) := k0_keep_main_arg0 (W0 m ρ c)
theorem w1_arg3 : W1 m ρ c (Proc.devRef .tc main_arg3) = (m ((c.tc : Thread nD τ).loc main_arg3)) := k0_keep_main_arg3 (W0 m ρ c)
theorem w1_arg4 : W1 m ρ c (Proc.devRef .tc main_arg4) = (m ((c.tc : Thread nD τ).loc main_arg4)) := k0_keep_main_arg4 (W0 m ρ c)
theorem w1_arg5 : W1 m ρ c (Proc.devRef .tc main_arg5) = (m ((c.tc : Thread nD τ).loc main_arg5)) := k0_keep_main_arg5 (W0 m ρ c)
theorem w1_arg6 : W1 m ρ c (Proc.devRef .tc main_arg6) = (m ((c.tc : Thread nD τ).loc main_arg6)) := k0_keep_main_arg6 (W0 m ρ c)

/-! ### The indices, the weights and the arguments carried on; the normalisation from the third stretch -/
theorem w2_row : W2 m ρ c (Proc.devRef .tc main_v5) = rowK (F := Ideal) (m ((c.tc : Thread nD τ).loc main_arg1)) := by
  show after hostOps0_1 (W1 m ρ c) (Proc.devRef .tc main_v5) = _
  rw [k01_keep_main_v5 (W1 m ρ c)]
  exact w1_row m ρ c
theorem w3_row : W3 m ρ c (Proc.devRef .tc main_v5) = rowK (F := Ideal) (m ((c.tc : Thread nD τ).loc main_arg1)) := by
  show after hostOps0_2 (W2 m ρ c) (Proc.devRef .tc main_v5) = _
  rw [k02_keep_main_v5 (W2 m ρ c)]
  exact w2_row m ρ c
theorem w4_row : W4 m ρ c (Proc.devRef .tc main_v5) = rowK (F := Ideal) (m ((c.tc : Thread nD τ).loc main_arg1)) :=
  (W4_of_ne m ρ c main_v5 (by decide)).trans (w3_row m ρ c)
theorem w5_row : W5 m ρ c (Proc.devRef .tc main_v5) = rowK (F := Ideal) (m ((c.tc : Thread nD τ).loc main_arg1)) := by
  show after hostOps1 (W4 m ρ c) (Proc.devRef .tc main_v5) = _
  rw [k1_keep_main_v5 (W4 m ρ c)]
  exact w4_row m ρ c
theorem w6_row : W6 m ρ c (Proc.devRef .tc main_v5) = rowK (F := Ideal) (m ((c.tc : Thread nD τ).loc main_arg1)) :=
  (W6_of_ne m ρ c main_v5 (by decide)).trans (w5_row m ρ c)
theorem w2_col : W2 m ρ c (Proc.devRef .tc main_v6) = colK (F := Ideal) (m ((c.tc : Thread nD τ).loc main_arg1)) := by
  show after hostOps0_1 (W1 m ρ c) (Proc.devRef .tc main_v6) = _
  rw [k01_keep_main_v6 (W1 m ρ c)]
  exact w1_col m ρ c
theorem w3_col : W3 m ρ c (Proc.devRef .tc main_v6) = colK (F := Ideal) (m ((c.tc : Thread nD τ).loc main_arg1)) := by
  show after hostOps0_2 (W2 m ρ c) (Proc.devRef .tc main_v6) = _
  rw [k02_keep_main_v6 (W2 m ρ c)]
  exact w2_col m ρ c
theorem w4_col : W4 m ρ c (Proc.devRef .tc main_v6) = colK (F := Ideal) (m ((c.tc : Thread nD τ).loc main_arg1)) :=
  (W4_of_ne m ρ c main_v6 (by decide)).trans (w3_col m ρ c)
theorem w5_col : W5 m ρ c (Proc.devRef .tc main_v6) = colK (F := Ideal) (m ((c.tc : Thread nD τ).loc main_arg1)) := by
  show after hostOps1 (W4 m ρ c) (Proc.devRef .tc main_v6) = _
  rw [k1_keep_main_v6 (W4 m ρ c)]
  exact w4_col m ρ c
theorem w6_col : W6 m ρ c (Proc.devRef .tc main_v6) = colK (F := Ideal) (m ((c.tc : Thread nD τ).loc main_arg1)) :=
  (W6_of_ne m ρ c main_v6 (by decide)).trans (w5_col m ρ c)
theorem w2_w : W2 m ρ c (Proc.devRef .tc main_v8) = wK (F := Ideal) (m ((c.tc : Thread nD τ).loc main_arg2)) := by
  show after hostOps0_1 (W1 m ρ c) (Proc.devRef .tc main_v8) = _
  rw [k01_keep_main_v8 (W1 m ρ c)]
  exact w1_w m ρ c
theorem w2_arg0 : W2 m ρ c (Proc.devRef .tc main_arg0) = (m ((c.tc : Thread nD τ).loc main_arg0)) := by
  show after hostOps0_1 (W1 m ρ c) (Proc.devRef .tc main_arg0) = _
  rw [k01_keep_main_arg0 (W1 m ρ c)]
  exact w1_arg0 m ρ c
theorem w3_arg0 : W3 m ρ c (Proc.devRef .tc main_arg0) = (m ((c.tc : Thread nD τ).loc main_arg0)) := by
  show after hostOps0_2 (W2 m ρ c) (Proc.devRef .tc main_arg0) = _
  rw [k02_keep_main_arg0 (W2 m ρ c)]
  exact w2_arg0 m ρ c
theorem w2_arg3 : W2 m ρ c (Proc.devRef .tc main_arg3) = (m ((c.tc : Thread nD τ).loc main_arg3)) := by
  show after hostOps0_1 (W1 m ρ c) (Proc.devRef .tc main_arg3) = _
  rw [k01_keep_main_arg3 (W1 m ρ c)]
  exact w1_arg3 m ρ c
theorem w3_arg3 : W3 m ρ c (Proc.devRef .tc main_arg3) = (m ((c.tc : Thread nD τ).loc main_arg3)) := by
  show after hostOps0_2 (W2 m ρ c) (Proc.devRef .tc main_arg3) = _
  rw [k02_keep_main_arg3 (W2 m ρ c)]
  exact w2_arg3 m ρ c
theorem w2_arg4 : W2 m ρ c (Proc.devRef .tc main_arg4) = (m ((c.tc : Thread nD τ).loc main_arg4)) := by
  show after hostOps0_1 (W1 m ρ c) (Proc.devRef .tc main_arg4) = _
  rw [k01_keep_main_arg4 (W1 m ρ c)]
  exact w1_arg4 m ρ c
theorem w3_arg4 : W3 m ρ c (Proc.devRef .tc main_arg4) = (m ((c.tc : Thread nD τ).loc main_arg4)) := by
  show after hostOps0_2 (W2 m ρ c) (Proc.devRef .tc main_arg4) = _
  rw [k02_keep_main_arg4 (W2 m ρ c)]
  exact w2_arg4 m ρ c
theorem w4_arg4 : W4 m ρ c (Proc.devRef .tc main_arg4) = (m ((c.tc : Thread nD τ).loc main_arg4)) :=
  (W4_of_ne m ρ c main_arg4 (by decide)).trans (w3_arg4 m ρ c)
theorem w2_arg5 : W2 m ρ c (Proc.devRef .tc main_arg5) = (m ((c.tc : Thread nD τ).loc main_arg5)) := by
  show after hostOps0_1 (W1 m ρ c) (Proc.devRef .tc main_arg5) = _
  rw [k01_keep_main_arg5 (W1 m ρ c)]
  exact w1_arg5 m ρ c
theorem w3_arg5 : W3 m ρ c (Proc.devRef .tc main_arg5) = (m ((c.tc : Thread nD τ).loc main_arg5)) := by
  show after hostOps0_2 (W2 m ρ c) (Proc.devRef .tc main_arg5) = _
  rw [k02_keep_main_arg5 (W2 m ρ c)]
  exact w2_arg5 m ρ c
theorem w4_arg5 : W4 m ρ c (Proc.devRef .tc main_arg5) = (m ((c.tc : Thread nD τ).loc main_arg5)) :=
  (W4_of_ne m ρ c main_arg5 (by decide)).trans (w3_arg5 m ρ c)
theorem w5_arg5 : W5 m ρ c (Proc.devRef .tc main_arg5) = (m ((c.tc : Thread nD τ).loc main_arg5)) := by
  show after hostOps1 (W4 m ρ c) (Proc.devRef .tc main_arg5) = _
  rw [k1_keep_main_arg5 (W4 m ρ c)]
  exact w4_arg5 m ρ c
theorem w2_arg6 : W2 m ρ c (Proc.devRef .tc main_arg6) = (m ((c.tc : Thread nD τ).loc main_arg6)) := by
  show after hostOps0_1 (W1 m ρ c) (Proc.devRef .tc main_arg6) = _
  rw [k01_keep_main_arg6 (W1 m ρ c)]
  exact w1_arg6 m ρ c
theorem w3_arg6 : W3 m ρ c (Proc.devRef .tc main_arg6) = (m ((c.tc : Thread nD τ).loc main_arg6)) := by
  show after hostOps0_2 (W2 m ρ c) (Proc.devRef .tc main_arg6) = _
  rw [k02_keep_main_arg6 (W2 m ρ c)]
  exact w2_arg6 m ρ c
theorem w4_arg6 : W4 m ρ c (Proc.devRef .tc main_arg6) = (m ((c.tc : Thread nD τ).loc main_arg6)) :=
  (W4_of_ne m ρ c main_arg6 (by decide)).trans (w3_arg6 m ρ c)
theorem w5_arg6 : W5 m ρ c (Proc.devRef .tc main_arg6) = (m ((c.tc : Thread nD τ).loc main_arg6)) := by
  show after hostOps1 (W4 m ρ c) (Proc.devRef .tc main_arg6) = _
  rw [k1_keep_main_arg6 (W4 m ρ c)]
  exact w4_arg6 m ρ c
theorem w6_arg6 : W6 m ρ c (Proc.devRef .tc main_arg6) = (m ((c.tc : Thread nD τ).loc main_arg6)) :=
  (W6_of_ne m ρ c main_arg6 (by decide)).trans (w5_arg6 m ρ c)

/-- The inverse square roots of the degrees after the select helper. -/
theorem w2_dinv : W2 m ρ c (Proc.devRef .tc main_v17) = dinvK (F := Ideal) (degK (F := Ideal) (colK (F := Ideal) (m ((c.tc : Thread nD τ).loc main_arg1))) (wK (F := Ideal) (m ((c.tc : Thread nD τ).loc main_arg2)))) (whereZeroK (F := Ideal) (zeroK (F := Ideal))) := by
  show after hostOps0_1 (W1 m ρ c) (Proc.devRef .tc main_v17) = _
  rw [k01_dinv (W1 m ρ c), w1_pos, w1_rsqrt, w1_zero]
  rfl

/-- The edges' normalisation at the first region's entry. -/
theorem w3_norm : W3 m ρ c (Proc.devRef .tc main_v33) = normOfK (F := Ideal) (m ((c.tc : Thread nD τ).loc main_arg1)) (m ((c.tc : Thread nD τ).loc main_arg2)) := by
  show after hostOps0_2 (W2 m ρ c) (Proc.devRef .tc main_v33) = _
  rw [k02_norm (W2 m ρ c), w2_dinv, w2_row, w2_col, w2_w]
  rfl
theorem w4_norm : W4 m ρ c (Proc.devRef .tc main_v33) = normOfK (F := Ideal) (m ((c.tc : Thread nD τ).loc main_arg1)) (m ((c.tc : Thread nD τ).loc main_arg2)) :=
  (W4_of_ne m ρ c main_v33 (by decide)).trans (w3_norm m ρ c)
theorem w5_norm : W5 m ρ c (Proc.devRef .tc main_v33) = normOfK (F := Ideal) (m ((c.tc : Thread nD τ).loc main_arg1)) (m ((c.tc : Thread nD τ).loc main_arg2)) := by
  show after hostOps1 (W4 m ρ c) (Proc.devRef .tc main_v33) = _
  rw [k1_keep_main_v33 (W4 m ρ c)]
  exact w4_norm m ρ c
theorem w6_norm : W6 m ρ c (Proc.devRef .tc main_v33) = normOfK (F := Ideal) (m ((c.tc : Thread nD τ).loc main_arg1)) (m ((c.tc : Thread nD τ).loc main_arg2)) :=
  (W6_of_ne m ρ c main_v33 (by decide)).trans (w5_norm m ρ c)

/-! ### The three regions and the stretches between them -/

/-- The first region leaves the product of the features with the first weight matrix. -/
theorem w4_h1 : W4 m ρ c (Proc.devRef .tc main_v34) = Cert.Spec.matProd 50000 512 128 (m ((c.tc : Thread nD τ).loc main_arg0)) (m ((c.tc : Thread nD τ).loc main_arg3)) :=
  (W4_arr m ρ c 2).trans ((arr_r0 (V3 m ρ) c).trans
    (congrArg₂ (Cert.Spec.matProd 50000 512 128) (w3_arg0 m ρ c) (w3_arg3 m ρ c)))

/-- The stretch after it aggregates that product over the edges … -/
theorem w5_agg1 : W5 m ρ c (Proc.devRef .tc main_v47) = aggK128 (F := Ideal) (Cert.Spec.matProd 50000 512 128 (m ((c.tc : Thread nD τ).loc main_arg0)) (m ((c.tc : Thread nD τ).loc main_arg3))) (rowK (F := Ideal) (m ((c.tc : Thread nD τ).loc main_arg1))) (colK (F := Ideal) (m ((c.tc : Thread nD τ).loc main_arg1))) (normOfK (F := Ideal) (m ((c.tc : Thread nD τ).loc main_arg1)) (m ((c.tc : Thread nD τ).loc main_arg2))) := by
  show after hostOps1 (W4 m ρ c) (Proc.devRef .tc main_v47) = _
  rw [k1_agg (W4 m ρ c), w4_h1, w4_row, w4_col, w4_norm]

/-- … and lays the first bias out as a 1×128 array. -/
theorem w5_b1 : W5 m ρ c (Proc.devRef .tc main_v48) = (shapeCast S1x128 (m ((c.tc : Thread nD τ).loc main_arg4)) shapeCasts_S128_S1x128) := by
  show after hostOps1 (W4 m ρ c) (Proc.devRef .tc main_v48) = _
  rw [k1_bias (W4 m ρ c), w4_arg4]

/-- The second region leaves its dense stage of what it was entered with. -/
theorem w6_h2 : W6 m ρ c (Proc.devRef .tc main_v49) = dense1 (aggK128 (F := Ideal) (Cert.Spec.matProd 50000 512 128 (m ((c.tc : Thread nD τ).loc main_arg0)) (m ((c.tc : Thread nD τ).loc main_arg3))) (rowK (F := Ideal) (m ((c.tc : Thread nD τ).loc main_arg1))) (colK (F := Ideal) (m ((c.tc : Thread nD τ).loc main_arg1))) (normOfK (F := Ideal) (m ((c.tc : Thread nD τ).loc main_arg1)) (m ((c.tc : Thread nD τ).loc main_arg2)))) (m ((c.tc : Thread nD τ).loc main_arg5)) (shapeCast S1x128 (m ((c.tc : Thread nD τ).loc main_arg4)) shapeCasts_S128_S1x128) :=
  (W6_arr m ρ c 3).trans ((arr_r1 (V5 m ρ) c).trans (by
    show dense1 (W5 m ρ c (Proc.devRef .tc main_v47)) (W5 m ρ c (Proc.devRef .tc main_arg5)) (W5 m ρ c (Proc.devRef .tc main_v48)) = _
    rw [w5_agg1, w5_arg5, w5_b1]))

/-- The stretch after it aggregates that over the edges … -/
theorem w7_agg2 : W7 m ρ c (Proc.devRef .tc main_v62) = aggK40 (F := Ideal) (dense1 (aggK128 (F := Ideal) (Cert.Spec.matProd 50000 512 128 (m ((c.tc : Thread nD τ).loc main_arg0)) (m ((c.tc : Thread nD τ).loc main_arg3))) (rowK (F := Ideal) (m ((c.tc : Thread nD τ).loc main_arg1))) (colK (F := Ideal) (m ((c.tc : Thread nD τ).loc main_arg1))) (normOfK (F := Ideal) (m ((c.tc : Thread nD τ).loc main_arg1)) (m ((c.tc : Thread nD τ).loc main_arg2)))) (m ((c.tc : Thread nD τ).loc main_arg5)) (shapeCast S1x128 (m ((c.tc : Thread nD τ).loc main_arg4)) shapeCasts_S128_S1x128)) (rowK (F := Ideal) (m ((c.tc : Thread nD τ).loc main_arg1))) (colK (F := Ideal) (m ((c.tc : Thread nD τ).loc main_arg1))) (normOfK (F := Ideal) (m ((c.tc : Thread nD τ).loc main_arg1)) (m ((c.tc : Thread nD τ).loc main_arg2))) := by
  show after hostOps2 (W6 m ρ c) (Proc.devRef .tc main_v62) = _
  rw [k2_agg (W6 m ρ c), w6_h2, w6_row, w6_col, w6_norm]

/-- … and lays the second bias out as a 1×40 array. -/
theorem w7_b2 : W7 m ρ c (Proc.devRef .tc main_v63) = (shapeCast S1x40 (m ((c.tc : Thread nD τ).loc main_arg6)) shapeCasts_S40_S1x40) := by
  show after hostOps2 (W6 m ρ c) (Proc.devRef .tc main_v63) = _
  rw [k2_bias (W6 m ρ c), w6_arg6]

/-- THE RESULT BUFFER at the last boundary: `kernelValue` of the seven arguments. -/
theorem w8_out : W8 m ρ c (Proc.devRef .tc main_v64)
    = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W8_arr m ρ c 2).trans ((arr_r2 (V7 m ρ) c).trans (by
    show lsm2 (W7 m ρ c (Proc.devRef .tc main_v62)) (W7 m ρ c (Proc.devRef .tc main_v63)) = _
    rw [w7_agg2, w7_b2]
    rfl))

end Chain

end Cert.KernelIdeal.Hand

end
-- ==== Proof.RefOps.lean ====
/-
  The idealized reference's host operations as functions of what they read, and its 150 operations cut into thirteen stretches.

  From the edge list `x1` and the edge weights `x2`: the source and target indices with one self loop per node appended
  (`rowR`, `colR`), the weights with a one per self loop (`wR`), each node's weighted in-degree (`degR`), its inverse
  square root where positive (`dinvR`), the symmetric normalisation of each edge (`normR`), the aggregation of a dense stage
  over the edges (`aggR128`, `aggR40`); the two products (`dot1R`, `dot2R`), the biases (`biasReluR`, `biasR40`) and the
  row-wise logarithm of the softmax (`lsmR`, from `rowMaxR`, `shiftR`, `expShiftR`, `tailR`). The cuts fall after the first 23, 26, 46, 63, 69, 92, 95, 115, 132, 135, 140
  and 145 operations.
-/
import proofs.«114802_j66829691125867_2_alg».proof.Proof.RunP
import Idealize.ShloMosaic.PureOps.Ideal
import Idealize.ShloMosaic.Lib.Pipeline.Frame

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

/-! ## The stretches' operations as functions of what they read -/

section Pure

variable {F : FTy → Type} [FloatOps F]

/-- Source indices: row 0 of the edge list, then one self loop per node. -/
def rowR (x1 : (⟨S2x800000, .i32⟩ : BufTy).Contents (Elt F)) : (⟨S850000, .i32⟩ : BufTy).Contents (Elt F) :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0

/-- Target indices: row 1 of the edge list, then one self loop per node. -/
def colR (x1 : (⟨S2x800000, .i32⟩ : BufTy).Contents (Elt F)) : (⟨S850000, .i32⟩ : BufTy).Contents (Elt F) :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0

/-- A scalar word spread over the 50000 nodes. -/
def nodesR (b : BitVec 32) : (⟨S50000, .f32⟩ : BufTy).Contents (Elt F) :=
  broadcastInDim S50000 ![] bcast_S_S50000 (constant S_ .f32 b : (⟨S_, .f32⟩ : BufTy).Contents (Elt F))

/-- Edge weights, then a one per self loop. -/
def wR (x2 : (⟨S800000, .f32⟩ : BufTy).Contents (Elt F)) : (⟨S850000, .f32⟩ : BufTy).Contents (Elt F) :=
  concatenate S850000 0 [⟨S800000, x2⟩, ⟨S50000, nodesR (F := F) 0x3F800000#32⟩] concatenates_S800000_S50000_S850000_d0

/-- An index list as the one-column index array a gather or scatter takes. -/
def colIdxR (idx : (⟨S850000, .i32⟩ : BufTy).Contents (Elt F)) : (⟨S850000x1, .i32⟩ : BufTy).Contents (Elt F) :=
  broadcastInDim S850000x1 ![0] bcast_S850000_S850000x1_0 idx

/-- Each node's weighted in-degree: the weights scatter-added at the targets into zeros. -/
def degR (col : (⟨S850000, .i32⟩ : BufTy).Contents (Elt F)) (w : (⟨S850000, .f32⟩ : BufTy).Contents (Elt F)) : (⟨S50000, .f32⟩ : BufTy).Contents (Elt F) :=
  Host.scatterAdd scatter_S50000_S850000x1_S850000_n_0_0_1 (nodesR (F := F) 0x00000000#32) (colIdxR (F := F) col) w

/-- Where the degree is positive. -/
def posR (deg : (⟨S50000, .f32⟩ : BufTy).Contents (Elt F)) : (⟨S50000, .i1⟩ : BufTy).Contents (Elt F) :=
  cmpf .ogt deg (nodesR (F := F) 0x00000000#32)

/-- The inverse square root of the degree raised to at least the small word. -/
def rsqR (deg : (⟨S50000, .f32⟩ : BufTy).Contents (Elt F)) : (⟨S50000, .f32⟩ : BufTy).Contents (Elt F) :=
  Host.rsqrt (maximumf deg (nodesR (F := F) 0x2B8CBCCC#32))

/-- The zero scalar. -/
def zeroR : (⟨S_, .f32⟩ : BufTy).Contents (Elt F) := constant S_ .f32 0x00000000#32

/-- The inverse square root of the degree where it is positive, and `z` elsewhere. -/
def dinvR (deg z : (⟨S50000, .f32⟩ : BufTy).Contents (Elt F)) : (⟨S50000, .f32⟩ : BufTy).Contents (Elt F) :=
  select (posR (F := F) deg) (rsqR (F := F) deg) z

/-- A negative index wrapped by the number of nodes. -/
def wrapR (idx : (⟨S850000, .i32⟩ : BufTy).Contents (Elt F)) : (⟨S850000, .i32⟩ : BufTy).Contents (Elt F) :=
  select (cmpi .slt idx (broadcastInDim S850000 ![] bcast_S_S850000 (constantI S_ 32 0#32)))
    (addi idx (broadcastInDim S850000 ![] bcast_S_S850000 (constantI S_ 32 50000#32))) idx

/-- The symmetric normalisation of each edge: `dinv[row e] · w[e] · dinv[col e]`. -/
def normR (dinv : (⟨S50000, .f32⟩ : BufTy).Contents (Elt F)) (row col : (⟨S850000, .i32⟩ : BufTy).Contents (Elt F)) (w : (⟨S850000, .f32⟩ : BufTy).Contents (Elt F)) : (⟨S850000, .f32⟩ : BufTy).Contents (Elt F) :=
  mulf (mulf (Host.gather gather_S50000_S850000x1_S850000_n_0_n_n_0_1_1 dinv (colIdxR (F := F) (wrapR (F := F) row))) w)
    (Host.gather gather_S50000_S850000x1_S850000_n_0_n_n_0_1_1 dinv (colIdxR (F := F) (wrapR (F := F) col)))

/-- The aggregation of a 128-column stage over the edges: rows gathered at the sources, scaled by the norm, scatter-added at the
    targets into zeros. -/
def aggR128 (h : (⟨S50000x128, .f32⟩ : BufTy).Contents (Elt F)) (row col : (⟨S850000, .i32⟩ : BufTy).Contents (Elt F)) (norm : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32 : (⟨S_, .f32⟩ : BufTy).Contents (Elt F)))
    (colIdxR (F := F) col)
    (mulf (Host.gather gather_S50000x128_S850000x1_S850000x128_1_0_n_n_0_1_1128 h (colIdxR (F := F) (wrapR (F := F) row)))
      (broadcastInDim S850000x128 ![0, 1] bcast_S850000x1_S850000x128_0_1 (broadcastInDim S850000x1 ![0] bcast_S850000_S850000x1_0 norm)))

/-- The aggregation of a 40-column stage over the edges. -/
def aggR40 (h : (⟨S50000x40, .f32⟩ : BufTy).Contents (Elt F)) (row col : (⟨S850000, .i32⟩ : BufTy).Contents (Elt F)) (norm : (⟨S850000, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant S_ .f32 0x00000000#32 : (⟨S_, .f32⟩ : BufTy).Contents (Elt F)))
    (colIdxR (F := F) col)
    (mulf (Host.gather gather_S50000x40_S850000x1_S850000x40_1_0_n_n_0_1_140 h (colIdxR (F := F) (wrapR (F := F) row)))
      (broadcastInDim S850000x40 ![0, 1] bcast_S850000x1_S850000x40_0_1 (broadcastInDim S850000x1 ![0] bcast_S850000_S850000x1_0 norm)))

/-- The zero the inverse square root is replaced by, spread over the nodes (the programs pass the scalar through an identity first). -/
def whereZeroR (z0 : (⟨S_, .f32⟩ : BufTy).Contents (Elt F)) : (⟨S50000, .f32⟩ : BufTy).Contents (Elt F) :=
  broadcastInDim S50000 ![] bcast_S_S50000 (id z0)

/-- The edges' normalisation from the edge list and the weights. -/
def normOfR (x1 : (⟨S2x800000, .i32⟩ : BufTy).Contents (Elt F)) (x2 : (⟨S800000, .f32⟩ : BufTy).Contents (Elt F)) : (⟨S850000, .f32⟩ : BufTy).Contents (Elt F) :=
  normR (F := F) (dinvR (F := F) (degR (F := F) (colR (F := F) x1) (wR (F := F) x2))
      (whereZeroR (F := F) (zeroR (F := F))))
    (rowR (F := F) x1) (colR (F := F) x1) (wR (F := F) x2)

/-- The first product. -/
def dot1R (x0 : (⟨S50000x512, .f32⟩ : BufTy).Contents (Elt F)) (x3 : (⟨S512x128, .f32⟩ : BufTy).Contents (Elt F)) : (⟨S50000x128, .f32⟩ : BufTy).Contents (Elt F) :=
  Host.dotGeneral dot_S50000x512_S512x128_S50000x128_1_0_0_1_n_n none x0 x3

/-- The second product. -/
def dot2R (h1 : (⟨S50000x128, .f32⟩ : BufTy).Contents (Elt F)) (x5 : (⟨S128x40, .f32⟩ : BufTy).Contents (Elt F)) : (⟨S50000x40, .f32⟩ : BufTy).Contents (Elt F) :=
  Host.dotGeneral dot_S50000x128_S128x40_S50000x40_1_0_0_1_n_n none h1 x5

/-- The first bias added down the rows, then the positive part. -/
def biasReluR (a : (⟨S50000x128, .f32⟩ : BufTy).Contents (Elt F)) (x4 : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 x4)))
    (broadcastInDim S50000x128 ![] bcast_S_S50000x128 (constant S_ .f32 0x00000000#32 : (⟨S_, .f32⟩ : BufTy).Contents (Elt F)))

/-- The second bias added down the rows. -/
def biasR40 (g : (⟨S50000x40, .f32⟩ : BufTy).Contents (Elt F)) (x6 : (⟨S40, .f32⟩ : BufTy).Contents (Elt F)) : (⟨S50000x40, .f32⟩ : BufTy).Contents (Elt F) :=
  addf g (broadcastInDim S50000x40 ![0, 1] bcast_S1x40_S50000x40_0_1 (broadcastInDim S1x40 ![1] bcast_S40_S1x40_1 x6))

/-- A per-row quantity spread back over its row. -/
def spreadR (v : (⟨S50000, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0 v)

/-- The rows' maxima as the host's max-reduce over the columns takes them, from `-∞`. -/
def hostRowMaxR (X : (⟨S50000x40, .f32⟩ : BufTy).Contents (Elt F)) : (⟨S50000, .f32⟩ : BufTy).Contents (Elt F) :=
  Host.reduce FloatOps.maximumf X (constant S_ .f32 0xFF800000#32 : (⟨S_, .f32⟩ : BufTy).Contents (Elt F)) reducesTo_S50000x40_S50000_d1 h_S_

/-- The rows' maxima, taken once more against `-∞`. -/
def rowMaxR (X : (⟨S50000x40, .f32⟩ : BufTy).Contents (Elt F)) : (⟨S50000, .f32⟩ : BufTy).Contents (Elt F) :=
  maximumf (broadcastInDim S50000 ![] bcast_S_S50000 (constant S_ .f32 0xFF800000#32 : (⟨S_, .f32⟩ : BufTy).Contents (Elt F))) (hostRowMaxR (F := F) X)

/-- The rows shifted by per-row quantities `μ`. -/
def shiftR (X : (⟨S50000x40, .f32⟩ : BufTy).Contents (Elt F)) (μ : (⟨S50000, .f32⟩ : BufTy).Contents (Elt F)) : (⟨S50000x40, .f32⟩ : BufTy).Contents (Elt F) :=
  subf X (spreadR (F := F) μ)

/-- The exponentials of the shifted rows. -/
def expShiftR (X : (⟨S50000x40, .f32⟩ : BufTy).Contents (Elt F)) (μ : (⟨S50000, .f32⟩ : BufTy).Contents (Elt F)) : (⟨S50000x40, .f32⟩ : BufTy).Contents (Elt F) :=
  Host.exp (shiftR (F := F) X μ)

/-- The shifted rows `Z` less the logarithm of the row sums of `E` (sums started from `z`), spread over the rows. -/
def tailR (Z E : (⟨S50000x40, .f32⟩ : BufTy).Contents (Elt F)) (z : (⟨S_, .f32⟩ : BufTy).Contents (Elt F)) : (⟨S50000x40, .f32⟩ : BufTy).Contents (Elt F) :=
  subf Z (broadcastInDim S50000x40 ![0, 1] bcast_S50000x1_S50000x40_0_1 (Host.log (broadcastInDim S50000x1 ![0] bcast_S50000_S50000x1_0
    (Host.reduceAdd E z reducesTo_S50000x40_S50000_d1 h_S_))))

/-- The row-wise logarithm of the softmax as the reference computes it. -/
def lsmR (X : (⟨S50000x40, .f32⟩ : BufTy).Contents (Elt F)) : (⟨S50000x40, .f32⟩ : BufTy).Contents (Elt F) :=
  tailR (F := F) (shiftR (F := F) X (rowMaxR (F := F) X)) (expShiftR (F := F) X (rowMaxR (F := F) X)) (zeroR (F := F))

/-! ### The softmax's pieces at an index: each is the scalar operation applied to its parts at that index, for any float values -/

theorem rowMaxR_apply (X : (⟨S50000x40, .f32⟩ : BufTy).Contents (Elt F)) (j : S50000.Idx) :
    rowMaxR (F := F) X j = FloatOps.maximumf
      ((broadcastInDim S50000 ![] bcast_S_S50000 (constant S_ .f32 0xFF800000#32 : (⟨S_, .f32⟩ : BufTy).Contents (Elt F)) : (⟨S50000, .f32⟩ : BufTy).Contents (Elt F)) j)
      (hostRowMaxR (F := F) X j) := rfl

theorem shiftR_apply (X : (⟨S50000x40, .f32⟩ : BufTy).Contents (Elt F)) (μ : (⟨S50000, .f32⟩ : BufTy).Contents (Elt F)) (i : S50000x40.Idx) :
    shiftR (F := F) X μ i = FloatOps.subf (X i) (spreadR (F := F) μ i) := rfl

theorem expShiftR_apply (X : (⟨S50000x40, .f32⟩ : BufTy).Contents (Elt F)) (μ : (⟨S50000, .f32⟩ : BufTy).Contents (Elt F)) (i : S50000x40.Idx) :
    expShiftR (F := F) X μ i = FloatOps.hostUnary .exp (shiftR (F := F) X μ i) := rfl

/-- The row sums of `E` started from `z`, as a column. -/
def rowSumColR (E : (⟨S50000x40, .f32⟩ : BufTy).Contents (Elt F)) (z : (⟨S_, .f32⟩ : BufTy).Contents (Elt F)) : (⟨S50000x1, .f32⟩ : BufTy).Contents (Elt F) :=
  broadcastInDim S50000x1 ![0] bcast_S50000_S50000x1_0 (Host.reduceAdd E z reducesTo_S50000x40_S50000_d1 h_S_)

theorem tailR_apply (Z E : (⟨S50000x40, .f32⟩ : BufTy).Contents (Elt F)) (z : (⟨S_, .f32⟩ : BufTy).Contents (Elt F)) (i : S50000x40.Idx) :
    tailR (F := F) Z E z i = FloatOps.subf (Z i)
      ((broadcastInDim S50000x40 ![0, 1] bcast_S50000x1_S50000x40_0_1 (Host.log (rowSumColR (F := F) E z)) : (⟨S50000x40, .f32⟩ : BufTy).Contents (Elt F)) i) := rfl

theorem hostLog_apply (v : (⟨S50000x1, .f32⟩ : BufTy).Contents (Elt F)) (i : S50000x1.Idx) :
    (Host.log v : (⟨S50000x1, .f32⟩ : BufTy).Contents (Elt F)) i = FloatOps.hostUnary .log (v i) := rfl

theorem lsmR_unfold (X : (⟨S50000x40, .f32⟩ : BufTy).Contents (Elt F)) :
    lsmR (F := F) X = tailR (F := F) (shiftR (F := F) X (rowMaxR (F := F) X)) (expShiftR (F := F) X (rowMaxR (F := F) X)) (zeroR (F := F)) := rfl

end Pure

/-- The reference's result as one function of its seven arguments. -/
def refValue (x0 : (⟨S50000x512, .f32⟩ : BufTy).Contents (Elt Ideal)) (x1 : (⟨S2x800000, .i32⟩ : BufTy).Contents (Elt Ideal)) (x2 : (⟨S800000, .f32⟩ : BufTy).Contents (Elt Ideal))
    (x3 : (⟨S512x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    (⟨S50000x40, .f32⟩ : BufTy).Contents (Elt Ideal) :=
  lsmR (F := Ideal) (biasR40 (F := Ideal) (aggR40 (F := Ideal) (dot2R (F := Ideal)
      (biasReluR (F := Ideal) (aggR128 (F := Ideal) (dot1R (F := Ideal) x0 x3) (rowR (F := Ideal) x1) (colR (F := Ideal) x1) (normOfR (F := Ideal) x1 x2)) x4) x5)
      (rowR (F := Ideal) x1) (colR (F := Ideal) x1) (normOfR (F := Ideal) x1 x2)) x6)

/-! ## The fold's thirteen stretches -/

abbrev Val := Valuation τ sig (Elt Ideal)

theorem after_split (L : List (HloOp τ sig (Elt Ideal))) (n : Nat) (V : Val) :
    after L V = after (L.drop n) (after (L.take n) V) := by
  rw [← after_append, List.take_append_drop]

/-- What is left of the operations after each cut. -/
abbrev T1 : List (HloOp τ sig (Elt Ideal)) := (ops (F := Ideal)).drop 23
abbrev T2 : List (HloOp τ sig (Elt Ideal)) := T1.drop 3
abbrev T3 : List (HloOp τ sig (Elt Ideal)) := T2.drop 20
abbrev T4 : List (HloOp τ sig (Elt Ideal)) := T3.drop 17
abbrev T5 : List (HloOp τ sig (Elt Ideal)) := T4.drop 6
abbrev T6 : List (HloOp τ sig (Elt Ideal)) := T5.drop 23
abbrev T7 : List (HloOp τ sig (Elt Ideal)) := T6.drop 3
abbrev T8 : List (HloOp τ sig (Elt Ideal)) := T7.drop 20
abbrev T9 : List (HloOp τ sig (Elt Ideal)) := T8.drop 17
abbrev T10 : List (HloOp τ sig (Elt Ideal)) := T9.drop 3
abbrev T11 : List (HloOp τ sig (Elt Ideal)) := T10.drop 5
abbrev T12 : List (HloOp τ sig (Elt Ideal)) := T11.drop 5

end Cert.ReferenceIdeal.Hand

end
-- ==== Proof.RefStage0.lean ====
/-
  Stretch 1 (23 operations): indices, weights, the degree's sign and inverse square root.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st0 (U : Val) :
    (after ((ops (F := Ideal)).take 23) U (Proc.devRef .tc main_v3) = rowR (F := Ideal) (U (Proc.devRef .tc main_arg1)))
    ∧ (after ((ops (F := Ideal)).take 23) U (Proc.devRef .tc main_v7) = colR (F := Ideal) (U (Proc.devRef .tc main_arg1)))
    ∧ (after ((ops (F := Ideal)).take 23) U (Proc.devRef .tc main_v9) = wR (F := Ideal) (U (Proc.devRef .tc main_arg2)))
    ∧ (after ((ops (F := Ideal)).take 23) U (Proc.devRef .tc main_v14) = posR (F := Ideal) (degR (F := Ideal) (colR (F := Ideal) (U (Proc.devRef .tc main_arg1))) (wR (F := Ideal) (U (Proc.devRef .tc main_arg2)))))
    ∧ (after ((ops (F := Ideal)).take 23) U (Proc.devRef .tc main_v17) = rsqR (F := Ideal) (degR (F := Ideal) (colR (F := Ideal) (U (Proc.devRef .tc main_arg1))) (wR (F := Ideal) (U (Proc.devRef .tc main_arg2)))))
    ∧ (after ((ops (F := Ideal)).take 23) U (Proc.devRef .tc main_cst_3) = (zeroR (F := Ideal)))
    ∧ (after ((ops (F := Ideal)).take 23) U (Proc.devRef .tc main_arg0) = U (Proc.devRef .tc main_arg0))
    ∧ (after ((ops (F := Ideal)).take 23) U (Proc.devRef .tc main_arg1) = U (Proc.devRef .tc main_arg1))
    ∧ (after ((ops (F := Ideal)).take 23) U (Proc.devRef .tc main_arg2) = U (Proc.devRef .tc main_arg2))
    ∧ (after ((ops (F := Ideal)).take 23) U (Proc.devRef .tc main_arg3) = U (Proc.devRef .tc main_arg3))
    ∧ (after ((ops (F := Ideal)).take 23) U (Proc.devRef .tc main_arg4) = U (Proc.devRef .tc main_arg4))
    ∧ (after ((ops (F := Ideal)).take 23) U (Proc.devRef .tc main_arg5) = U (Proc.devRef .tc main_arg5))
    ∧ (after ((ops (F := Ideal)).take 23) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_, ?_, ?_, ?_, ?_, ?_, ?_, ?_⟩
  · after_results
    rfl
  · after_results
    rfl
  · after_results
    rfl
  · after_results
    rfl
  · after_results
    rfl
  · after_results
    rfl
  · after_results_simp
  · after_results_simp
  · after_results_simp
  · after_results_simp
  · after_results_simp
  · after_results_simp
  · after_results_simp

/-- The source indices. -/
theorem r0_row (U : Val) : after ((ops (F := Ideal)).take 23) U (Proc.devRef .tc main_v3) = rowR (F := Ideal) (U (Proc.devRef .tc main_arg1)) := (st0 U).1
/-- The target indices. -/
theorem r0_col (U : Val) : after ((ops (F := Ideal)).take 23) U (Proc.devRef .tc main_v7) = colR (F := Ideal) (U (Proc.devRef .tc main_arg1)) := (st0 U).2.1
/-- The weights with the self loops' ones. -/
theorem r0_w (U : Val) : after ((ops (F := Ideal)).take 23) U (Proc.devRef .tc main_v9) = wR (F := Ideal) (U (Proc.devRef .tc main_arg2)) := (st0 U).2.2.1
/-- Where the degree is positive. -/
theorem r0_pos (U : Val) : after ((ops (F := Ideal)).take 23) U (Proc.devRef .tc main_v14) = posR (F := Ideal) (degR (F := Ideal) (colR (F := Ideal) (U (Proc.devRef .tc main_arg1))) (wR (F := Ideal) (U (Proc.devRef .tc main_arg2)))) := (st0 U).2.2.2.1
/-- The inverse square root of the raised degree. -/
theorem r0_rsqrt (U : Val) : after ((ops (F := Ideal)).take 23) U (Proc.devRef .tc main_v17) = rsqR (F := Ideal) (degR (F := Ideal) (colR (F := Ideal) (U (Proc.devRef .tc main_arg1))) (wR (F := Ideal) (U (Proc.devRef .tc main_arg2)))) := (st0 U).2.2.2.2.1
/-- The zero scalar the select helper is called with. -/
theorem r0_zero (U : Val) : after ((ops (F := Ideal)).take 23) U (Proc.devRef .tc main_cst_3) = (zeroR (F := Ideal)) := (st0 U).2.2.2.2.2.1
theorem r0_keep_main_arg0 (U : Val) : after ((ops (F := Ideal)).take 23) U (Proc.devRef .tc main_arg0) = U (Proc.devRef .tc main_arg0) := (st0 U).2.2.2.2.2.2.1
theorem r0_keep_main_arg1 (U : Val) : after ((ops (F := Ideal)).take 23) U (Proc.devRef .tc main_arg1) = U (Proc.devRef .tc main_arg1) := (st0 U).2.2.2.2.2.2.2.1
theorem r0_keep_main_arg2 (U : Val) : after ((ops (F := Ideal)).take 23) U (Proc.devRef .tc main_arg2) = U (Proc.devRef .tc main_arg2) := (st0 U).2.2.2.2.2.2.2.2.1
theorem r0_keep_main_arg3 (U : Val) : after ((ops (F := Ideal)).take 23) U (Proc.devRef .tc main_arg3) = U (Proc.devRef .tc main_arg3) := (st0 U).2.2.2.2.2.2.2.2.2.1
theorem r0_keep_main_arg4 (U : Val) : after ((ops (F := Ideal)).take 23) U (Proc.devRef .tc main_arg4) = U (Proc.devRef .tc main_arg4) := (st0 U).2.2.2.2.2.2.2.2.2.2.1
theorem r0_keep_main_arg5 (U : Val) : after ((ops (F := Ideal)).take 23) U (Proc.devRef .tc main_arg5) = U (Proc.devRef .tc main_arg5) := (st0 U).2.2.2.2.2.2.2.2.2.2.2.1
theorem r0_keep_main_arg6 (U : Val) : after ((ops (F := Ideal)).take 23) U (Proc.devRef .tc main_arg6) = U (Proc.devRef .tc main_arg6) := (st0 U).2.2.2.2.2.2.2.2.2.2.2.2

end Cert.ReferenceIdeal.Hand

end
-- ==== Proof.RefStage1.lean ====
/-
  Stretch 2 (3): the select helper.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st1 (U : Val) :
    (after (T1.take 3) U (Proc.devRef .tc main_v18) = select (U (Proc.devRef .tc main_v14)) (U (Proc.devRef .tc main_v17)) (whereZeroR (F := Ideal) (U (Proc.devRef .tc main_cst_3))))
    ∧ (after (T1.take 3) U (Proc.devRef .tc main_v3) = U (Proc.devRef .tc main_v3))
    ∧ (after (T1.take 3) U (Proc.devRef .tc main_v7) = U (Proc.devRef .tc main_v7))
    ∧ (after (T1.take 3) U (Proc.devRef .tc main_v9) = U (Proc.devRef .tc main_v9))
    ∧ (after (T1.take 3) U (Proc.devRef .tc main_arg0) = U (Proc.devRef .tc main_arg0))
    ∧ (after (T1.take 3) U (Proc.devRef .tc main_arg1) = U (Proc.devRef .tc main_arg1))
    ∧ (after (T1.take 3) U (Proc.devRef .tc main_arg2) = U (Proc.devRef .tc main_arg2))
    ∧ (after (T1.take 3) U (Proc.devRef .tc main_arg3) = U (Proc.devRef .tc main_arg3))
    ∧ (after (T1.take 3) U (Proc.devRef .tc main_arg4) = U (Proc.devRef .tc main_arg4))
    ∧ (after (T1.take 3) U (Proc.devRef .tc main_arg5) = U (Proc.devRef .tc main_arg5))
    ∧ (after (T1.take 3) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_, ?_, ?_, ?_, ?_, ?_⟩
  · after_results_simp
    rfl
  · after_results_simp
  · after_results_simp
  · after_results_simp
  · after_results_simp
  · after_results_simp
  · after_results_simp
  · after_results_simp
  · after_results_simp
  · after_results_simp
  · after_results_simp

/-- The selected inverse square root. -/
theorem r1_dinv (U : Val) : after (T1.take 3) U (Proc.devRef .tc main_v18) = select (U (Proc.devRef .tc main_v14)) (U (Proc.devRef .tc main_v17)) (whereZeroR (F := Ideal) (U (Proc.devRef .tc main_cst_3))) := (st1 U).1
theorem r1_keep_main_v3 (U : Val) : after (T1.take 3) U (Proc.devRef .tc main_v3) = U (Proc.devRef .tc main_v3) := (st1 U).2.1
theorem r1_keep_main_v7 (U : Val) : after (T1.take 3) U (Proc.devRef .tc main_v7) = U (Proc.devRef .tc main_v7) := (st1 U).2.2.1
theorem r1_keep_main_v9 (U : Val) : after (T1.take 3) U (Proc.devRef .tc main_v9) = U (Proc.devRef .tc main_v9) := (st1 U).2.2.2.1
theorem r1_keep_main_arg0 (U : Val) : after (T1.take 3) U (Proc.devRef .tc main_arg0) = U (Proc.devRef .tc main_arg0) := (st1 U).2.2.2.2.1
theorem r1_keep_main_arg1 (U : Val) : after (T1.take 3) U (Proc.devRef .tc main_arg1) = U (Proc.devRef .tc main_arg1) := (st1 U).2.2.2.2.2.1
theorem r1_keep_main_arg2 (U : Val) : after (T1.take 3) U (Proc.devRef .tc main_arg2) = U (Proc.devRef .tc main_arg2) := (st1 U).2.2.2.2.2.2.1
theorem r1_keep_main_arg3 (U : Val) : after (T1.take 3) U (Proc.devRef .tc main_arg3) = U (Proc.devRef .tc main_arg3) := (st1 U).2.2.2.2.2.2.2.1
theorem r1_keep_main_arg4 (U : Val) : after (T1.take 3) U (Proc.devRef .tc main_arg4) = U (Proc.devRef .tc main_arg4) := (st1 U).2.2.2.2.2.2.2.2.1
theorem r1_keep_main_arg5 (U : Val) : after (T1.take 3) U (Proc.devRef .tc main_arg5) = U (Proc.devRef .tc main_arg5) := (st1 U).2.2.2.2.2.2.2.2.2.1
theorem r1_keep_main_arg6 (U : Val) : after (T1.take 3) U (Proc.devRef .tc main_arg6) = U (Proc.devRef .tc main_arg6) := (st1 U).2.2.2.2.2.2.2.2.2.2

end Cert.ReferenceIdeal.Hand

end
-- ==== Proof.RefStage2.lean ====
/-
  Stretch 3 (20): the normalisation.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st2 (U : Val) :
    (after (T2.take 20) U (Proc.devRef .tc main_v34) = normR (F := Ideal) (U (Proc.devRef .tc main_v18)) (U (Proc.devRef .tc main_v3)) (U (Proc.devRef .tc main_v7)) (U (Proc.devRef .tc main_v9)))
    ∧ (after (T2.take 20) U (Proc.devRef .tc main_v3) = U (Proc.devRef .tc main_v3))
    ∧ (after (T2.take 20) U (Proc.devRef .tc main_v7) = U (Proc.devRef .tc main_v7))
    ∧ (after (T2.take 20) U (Proc.devRef .tc main_arg0) = U (Proc.devRef .tc main_arg0))
    ∧ (after (T2.take 20) U (Proc.devRef .tc main_arg1) = U (Proc.devRef .tc main_arg1))
    ∧ (after (T2.take 20) U (Proc.devRef .tc main_arg2) = U (Proc.devRef .tc main_arg2))
    ∧ (after (T2.take 20) U (Proc.devRef .tc main_arg3) = U (Proc.devRef .tc main_arg3))
    ∧ (after (T2.take 20) U (Proc.devRef .tc main_arg4) = U (Proc.devRef .tc main_arg4))
    ∧ (after (T2.take 20) U (Proc.devRef .tc main_arg5) = U (Proc.devRef .tc main_arg5))
    ∧ (after (T2.take 20) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_, ?_, ?_, ?_, ?_⟩
  · after_results_simp
    rfl
  · after_results_simp
  · after_results_simp
  · after_results_simp
  · after_results_simp
  · after_results_simp
  · after_results_simp
  · after_results_simp
  · after_results_simp
  · after_results_simp

/-- The edges' normalisation. -/
theorem r2_norm (U : Val) : after (T2.take 20) U (Proc.devRef .tc main_v34) = normR (F := Ideal) (U (Proc.devRef .tc main_v18)) (U (Proc.devRef .tc main_v3)) (U (Proc.devRef .tc main_v7)) (U (Proc.devRef .tc main_v9)) := (st2 U).1
theorem r2_keep_main_v3 (U : Val) : after (T2.take 20) U (Proc.devRef .tc main_v3) = U (Proc.devRef .tc main_v3) := (st2 U).2.1
theorem r2_keep_main_v7 (U : Val) : after (T2.take 20) U (Proc.devRef .tc main_v7) = U (Proc.devRef .tc main_v7) := (st2 U).2.2.1
theorem r2_keep_main_arg0 (U : Val) : after (T2.take 20) U (Proc.devRef .tc main_arg0) = U (Proc.devRef .tc main_arg0) := (st2 U).2.2.2.1
theorem r2_keep_main_arg1 (U : Val) : after (T2.take 20) U (Proc.devRef .tc main_arg1) = U (Proc.devRef .tc main_arg1) := (st2 U).2.2.2.2.1
theorem r2_keep_main_arg2 (U : Val) : after (T2.take 20) U (Proc.devRef .tc main_arg2) = U (Proc.devRef .tc main_arg2) := (st2 U).2.2.2.2.2.1
theorem r2_keep_main_arg3 (U : Val) : after (T2.take 20) U (Proc.devRef .tc main_arg3) = U (Proc.devRef .tc main_arg3) := (st2 U).2.2.2.2.2.2.1
theorem r2_keep_main_arg4 (U : Val) : after (T2.take 20) U (Proc.devRef .tc main_arg4) = U (Proc.devRef .tc main_arg4) := (st2 U).2.2.2.2.2.2.2.1
theorem r2_keep_main_arg5 (U : Val) : after (T2.take 20) U (Proc.devRef .tc main_arg5) = U (Proc.devRef .tc main_arg5) := (st2 U).2.2.2.2.2.2.2.2.1
theorem r2_keep_main_arg6 (U : Val) : after (T2.take 20) U (Proc.devRef .tc main_arg6) = U (Proc.devRef .tc main_arg6) := (st2 U).2.2.2.2.2.2.2.2.2

end Cert.ReferenceIdeal.Hand

end
-- ==== Proof.RefStage3.lean ====
/-
  Stretch 4 (17): the first product and its aggregation.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st3 (U : Val) :
    (after (T3.take 17) U (Proc.devRef .tc main_v48) = aggR128 (F := Ideal) (dot1R (F := Ideal) (U (Proc.devRef .tc main_arg0)) (U (Proc.devRef .tc main_arg3))) (U (Proc.devRef .tc main_v3)) (U (Proc.devRef .tc main_v7)) (U (Proc.devRef .tc main_v34)))
    ∧ (after (T3.take 17) U (Proc.devRef .tc main_arg1) = U (Proc.devRef .tc main_arg1))
    ∧ (after (T3.take 17) U (Proc.devRef .tc main_arg2) = U (Proc.devRef .tc main_arg2))
    ∧ (after (T3.take 17) U (Proc.devRef .tc main_arg4) = U (Proc.devRef .tc main_arg4))
    ∧ (after (T3.take 17) U (Proc.devRef .tc main_arg5) = U (Proc.devRef .tc main_arg5))
    ∧ (after (T3.take 17) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_⟩
  · after_results_simp
    rfl
  · after_results_simp
  · after_results_simp
  · after_results_simp
  · after_results_simp
  · after_results_simp

/-- The first product aggregated over the edges. -/
theorem r3_agg (U : Val) : after (T3.take 17) U (Proc.devRef .tc main_v48) = aggR128 (F := Ideal) (dot1R (F := Ideal) (U (Proc.devRef .tc main_arg0)) (U (Proc.devRef .tc main_arg3))) (U (Proc.devRef .tc main_v3)) (U (Proc.devRef .tc main_v7)) (U (Proc.devRef .tc main_v34)) := (st3 U).1
theorem r3_keep_main_arg1 (U : Val) : after (T3.take 17) U (Proc.devRef .tc main_arg1) = U (Proc.devRef .tc main_arg1) := (st3 U).2.1
theorem r3_keep_main_arg2 (U : Val) : after (T3.take 17) U (Proc.devRef .tc main_arg2) = U (Proc.devRef .tc main_arg2) := (st3 U).2.2.1
theorem r3_keep_main_arg4 (U : Val) : after (T3.take 17) U (Proc.devRef .tc main_arg4) = U (Proc.devRef .tc main_arg4) := (st3 U).2.2.2.1
theorem r3_keep_main_arg5 (U : Val) : after (T3.take 17) U (Proc.devRef .tc main_arg5) = U (Proc.devRef .tc main_arg5) := (st3 U).2.2.2.2.1
theorem r3_keep_main_arg6 (U : Val) : after (T3.take 17) U (Proc.devRef .tc main_arg6) = U (Proc.devRef .tc main_arg6) := (st3 U).2.2.2.2.2

end Cert.ReferenceIdeal.Hand

end
-- ==== Proof.RefStage4.lean ====
/-
  Stretch 5 (6): the first bias and the positive part.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st4 (U : Val) :
    (after (T4.take 6) U (Proc.devRef .tc main_v52) = biasReluR (F := Ideal) (U (Proc.devRef .tc main_v48)) (U (Proc.devRef .tc main_arg4)))
    ∧ (after (T4.take 6) U (Proc.devRef .tc main_arg1) = U (Proc.devRef .tc main_arg1))
    ∧ (after (T4.take 6) U (Proc.devRef .tc main_arg2) = U (Proc.devRef .tc main_arg2))
    ∧ (after (T4.take 6) U (Proc.devRef .tc main_arg5) = U (Proc.devRef .tc main_arg5))
    ∧ (after (T4.take 6) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_⟩
  · after_results_simp
    rfl
  · after_results_simp
  · after_results_simp
  · after_results_simp
  · after_results_simp

/-- The first bias and the positive part. -/
theorem r4_relu (U : Val) : after (T4.take 6) U (Proc.devRef .tc main_v52) = biasReluR (F := Ideal) (U (Proc.devRef .tc main_v48)) (U (Proc.devRef .tc main_arg4)) := (st4 U).1
theorem r4_keep_main_arg1 (U : Val) : after (T4.take 6) U (Proc.devRef .tc main_arg1) = U (Proc.devRef .tc main_arg1) := (st4 U).2.1
theorem r4_keep_main_arg2 (U : Val) : after (T4.take 6) U (Proc.devRef .tc main_arg2) = U (Proc.devRef .tc main_arg2) := (st4 U).2.2.1
theorem r4_keep_main_arg5 (U : Val) : after (T4.take 6) U (Proc.devRef .tc main_arg5) = U (Proc.devRef .tc main_arg5) := (st4 U).2.2.2.1
theorem r4_keep_main_arg6 (U : Val) : after (T4.take 6) U (Proc.devRef .tc main_arg6) = U (Proc.devRef .tc main_arg6) := (st4 U).2.2.2.2

end Cert.ReferenceIdeal.Hand

end
-- ==== Proof.RefStage5.lean ====
/-
  Stretch 6 (23): the indices, weights and degree once more.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st5 (U : Val) :
    (after (T5.take 23) U (Proc.devRef .tc main_v56) = rowR (F := Ideal) (U (Proc.devRef .tc main_arg1)))
    ∧ (after (T5.take 23) U (Proc.devRef .tc main_v60) = colR (F := Ideal) (U (Proc.devRef .tc main_arg1)))
    ∧ (after (T5.take 23) U (Proc.devRef .tc main_v62) = wR (F := Ideal) (U (Proc.devRef .tc main_arg2)))
    ∧ (after (T5.take 23) U (Proc.devRef .tc main_v67) = posR (F := Ideal) (degR (F := Ideal) (colR (F := Ideal) (U (Proc.devRef .tc main_arg1))) (wR (F := Ideal) (U (Proc.devRef .tc main_arg2)))))
    ∧ (after (T5.take 23) U (Proc.devRef .tc main_v70) = rsqR (F := Ideal) (degR (F := Ideal) (colR (F := Ideal) (U (Proc.devRef .tc main_arg1))) (wR (F := Ideal) (U (Proc.devRef .tc main_arg2)))))
    ∧ (after (T5.take 23) U (Proc.devRef .tc main_cst_14) = (zeroR (F := Ideal)))
    ∧ (after (T5.take 23) U (Proc.devRef .tc main_v52) = U (Proc.devRef .tc main_v52))
    ∧ (after (T5.take 23) U (Proc.devRef .tc main_arg5) = U (Proc.devRef .tc main_arg5))
    ∧ (after (T5.take 23) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_, ?_, ?_, ?_⟩
  · after_results
    rfl
  · after_results
    rfl
  · after_results
    rfl
  · after_results
    rfl
  · after_results
    rfl
  · after_results
    rfl
  · after_results_simp
  · after_results_simp
  · after_results_simp

/-- The source indices. -/
theorem r5_row (U : Val) : after (T5.take 23) U (Proc.devRef .tc main_v56) = rowR (F := Ideal) (U (Proc.devRef .tc main_arg1)) := (st5 U).1
/-- The target indices. -/
theorem r5_col (U : Val) : after (T5.take 23) U (Proc.devRef .tc main_v60) = colR (F := Ideal) (U (Proc.devRef .tc main_arg1)) := (st5 U).2.1
/-- The weights with the self loops' ones. -/
theorem r5_w (U : Val) : after (T5.take 23) U (Proc.devRef .tc main_v62) = wR (F := Ideal) (U (Proc.devRef .tc main_arg2)) := (st5 U).2.2.1
/-- Where the degree is positive. -/
theorem r5_pos (U : Val) : after (T5.take 23) U (Proc.devRef .tc main_v67) = posR (F := Ideal) (degR (F := Ideal) (colR (F := Ideal) (U (Proc.devRef .tc main_arg1))) (wR (F := Ideal) (U (Proc.devRef .tc main_arg2)))) := (st5 U).2.2.2.1
/-- The inverse square root of the raised degree. -/
theorem r5_rsqrt (U : Val) : after (T5.take 23) U (Proc.devRef .tc main_v70) = rsqR (F := Ideal) (degR (F := Ideal) (colR (F := Ideal) (U (Proc.devRef .tc main_arg1))) (wR (F := Ideal) (U (Proc.devRef .tc main_arg2)))) := (st5 U).2.2.2.2.1
/-- The zero scalar the select helper is called with. -/
theorem r5_zero (U : Val) : after (T5.take 23) U (Proc.devRef .tc main_cst_14) = (zeroR (F := Ideal)) := (st5 U).2.2.2.2.2.1
theorem r5_keep_main_v52 (U : Val) : after (T5.take 23) U (Proc.devRef .tc main_v52) = U (Proc.devRef .tc main_v52) := (st5 U).2.2.2.2.2.2.1
theorem r5_keep_main_arg5 (U : Val) : after (T5.take 23) U (Proc.devRef .tc main_arg5) = U (Proc.devRef .tc main_arg5) := (st5 U).2.2.2.2.2.2.2.1
theorem r5_keep_main_arg6 (U : Val) : after (T5.take 23) U (Proc.devRef .tc main_arg6) = U (Proc.devRef .tc main_arg6) := (st5 U).2.2.2.2.2.2.2.2

end Cert.ReferenceIdeal.Hand

end
-- ==== Proof.RefStage6.lean ====
/-
  Stretch 7 (3): the select helper again.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st6 (U : Val) :
    (after (T6.take 3) U (Proc.devRef .tc main_v71) = select (U (Proc.devRef .tc main_v67)) (U (Proc.devRef .tc main_v70)) (whereZeroR (F := Ideal) (U (Proc.devRef .tc main_cst_14))))
    ∧ (after (T6.take 3) U (Proc.devRef .tc main_v52) = U (Proc.devRef .tc main_v52))
    ∧ (after (T6.take 3) U (Proc.devRef .tc main_v56) = U (Proc.devRef .tc main_v56))
    ∧ (after (T6.take 3) U (Proc.devRef .tc main_v60) = U (Proc.devRef .tc main_v60))
    ∧ (after (T6.take 3) U (Proc.devRef .tc main_v62) = U (Proc.devRef .tc main_v62))
    ∧ (after (T6.take 3) U (Proc.devRef .tc main_arg5) = U (Proc.devRef .tc main_arg5))
    ∧ (after (T6.take 3) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_, ?_⟩
  · after_results_simp
    rfl
  · after_results_simp
  · after_results_simp
  · after_results_simp
  · after_results_simp
  · after_results_simp
  · after_results_simp

/-- The selected inverse square root, again. -/
theorem r6_dinv (U : Val) : after (T6.take 3) U (Proc.devRef .tc main_v71) = select (U (Proc.devRef .tc main_v67)) (U (Proc.devRef .tc main_v70)) (whereZeroR (F := Ideal) (U (Proc.devRef .tc main_cst_14))) := (st6 U).1
theorem r6_keep_main_v52 (U : Val) : after (T6.take 3) U (Proc.devRef .tc main_v52) = U (Proc.devRef .tc main_v52) := (st6 U).2.1
theorem r6_keep_main_v56 (U : Val) : after (T6.take 3) U (Proc.devRef .tc main_v56) = U (Proc.devRef .tc main_v56) := (st6 U).2.2.1
theorem r6_keep_main_v60 (U : Val) : after (T6.take 3) U (Proc.devRef .tc main_v60) = U (Proc.devRef .tc main_v60) := (st6 U).2.2.2.1
theorem r6_keep_main_v62 (U : Val) : after (T6.take 3) U (Proc.devRef .tc main_v62) = U (Proc.devRef .tc main_v62) := (st6 U).2.2.2.2.1
theorem r6_keep_main_arg5 (U : Val) : after (T6.take 3) U (Proc.devRef .tc main_arg5) = U (Proc.devRef .tc main_arg5) := (st6 U).2.2.2.2.2.1
theorem r6_keep_main_arg6 (U : Val) : after (T6.take 3) U (Proc.devRef .tc main_arg6) = U (Proc.devRef .tc main_arg6) := (st6 U).2.2.2.2.2.2

end Cert.ReferenceIdeal.Hand

end
-- ==== Proof.RefStage7.lean ====
/-
  Stretch 8 (20): the normalisation again.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st7 (U : Val) :
    (after (T7.take 20) U (Proc.devRef .tc main_v87) = normR (F := Ideal) (U (Proc.devRef .tc main_v71)) (U (Proc.devRef .tc main_v56)) (U (Proc.devRef .tc main_v60)) (U (Proc.devRef .tc main_v62)))
    ∧ (after (T7.take 20) U (Proc.devRef .tc main_v52) = U (Proc.devRef .tc main_v52))
    ∧ (after (T7.take 20) U (Proc.devRef .tc main_v56) = U (Proc.devRef .tc main_v56))
    ∧ (after (T7.take 20) U (Proc.devRef .tc main_v60) = U (Proc.devRef .tc main_v60))
    ∧ (after (T7.take 20) U (Proc.devRef .tc main_arg5) = U (Proc.devRef .tc main_arg5))
    ∧ (after (T7.take 20) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_, ?_, ?_, ?_, ?_⟩
  · after_results_simp
    rfl
  · after_results_simp
  · after_results_simp
  · after_results_simp
  · after_results_simp
  · after_results_simp

/-- The edges' normalisation, again. -/
theorem r7_norm (U : Val) : after (T7.take 20) U (Proc.devRef .tc main_v87) = normR (F := Ideal) (U (Proc.devRef .tc main_v71)) (U (Proc.devRef .tc main_v56)) (U (Proc.devRef .tc main_v60)) (U (Proc.devRef .tc main_v62)) := (st7 U).1
theorem r7_keep_main_v52 (U : Val) : after (T7.take 20) U (Proc.devRef .tc main_v52) = U (Proc.devRef .tc main_v52) := (st7 U).2.1
theorem r7_keep_main_v56 (U : Val) : after (T7.take 20) U (Proc.devRef .tc main_v56) = U (Proc.devRef .tc main_v56) := (st7 U).2.2.1
theorem r7_keep_main_v60 (U : Val) : after (T7.take 20) U (Proc.devRef .tc main_v60) = U (Proc.devRef .tc main_v60) := (st7 U).2.2.2.1
theorem r7_keep_main_arg5 (U : Val) : after (T7.take 20) U (Proc.devRef .tc main_arg5) = U (Proc.devRef .tc main_arg5) := (st7 U).2.2.2.2.1
theorem r7_keep_main_arg6 (U : Val) : after (T7.take 20) U (Proc.devRef .tc main_arg6) = U (Proc.devRef .tc main_arg6) := (st7 U).2.2.2.2.2

end Cert.ReferenceIdeal.Hand

end
-- ==== Proof.RefStage8.lean ====
/-
  Stretch 9 (17): the second product and its aggregation.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st8 (U : Val) :
    (after (T8.take 17) U (Proc.devRef .tc main_v101) = aggR40 (F := Ideal) (dot2R (F := Ideal) (U (Proc.devRef .tc main_v52)) (U (Proc.devRef .tc main_arg5))) (U (Proc.devRef .tc main_v56)) (U (Proc.devRef .tc main_v60)) (U (Proc.devRef .tc main_v87)))
    ∧ (after (T8.take 17) U (Proc.devRef .tc main_arg6) = U (Proc.devRef .tc main_arg6)) := by
  simp only [T1, T2, T3, T4, T5, T6, T7, T8, T9, T10, ops, List.take_succ_cons, List.take_zero, List.drop_succ_cons, List.drop_zero]
  refine ⟨?_, ?_⟩
  · after_results_simp
    rfl
  · after_results_simp

/-- The second product aggregated over the edges. -/
theorem r8_agg (U : Val) : after (T8.take 17) U (Proc.devRef .tc main_v101) = aggR40 (F := Ideal) (dot2R (F := Ideal) (U (Proc.devRef .tc main_v52)) (U (Proc.devRef .tc main_arg5))) (U (Proc.devRef .tc main_v56)) (U (Proc.devRef .tc main_v60)) (U (Proc.devRef .tc main_v87)) := (st8 U).1
theorem r8_keep_main_arg6 (U : Val) : after (T8.take 17) U (Proc.devRef .tc main_arg6) = U (Proc.devRef .tc main_arg6) := (st8 U).2

end Cert.ReferenceIdeal.Hand

end
-- ==== Proof.RefStage9.lean ====
/-
  Stretch 10 (3): the second bias.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st9 (U : Val) :
    (after (T9.take 3) U (Proc.devRef .tc main_v104) = biasR40 (F := Ideal) (U (Proc.devRef .tc main_v101)) (U (Proc.devRef .tc main_arg6))) := by
  simp only [T1, T2, T3, T4, T5, T6, T7, T8, T9, T10, ops, List.take_succ_cons, List.take_zero, List.drop_succ_cons, List.drop_zero]
  after_results_simp
  rfl

/-- The second bias. -/
theorem r9_bias (U : Val) : after (T9.take 3) U (Proc.devRef .tc main_v104) = biasR40 (F := Ideal) (U (Proc.devRef .tc main_v101)) (U (Proc.devRef .tc main_arg6)) := (st9 U)

end Cert.ReferenceIdeal.Hand

end
-- ==== Proof.RefStage10.lean ====
/-
  Stretch 11 (5): the rows' maxima.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st10 (U : Val) :
    (after (T10.take 5) U (Proc.devRef .tc main_call3_v2) = rowMaxR (F := Ideal) (U (Proc.devRef .tc main_v104)))
    ∧ (after (T10.take 5) U (Proc.devRef .tc main_v104) = U (Proc.devRef .tc main_v104)) := by
  simp only [T1, T2, T3, T4, T5, T6, T7, T8, T9, T10, T11, T12, ops, List.take_succ_cons, List.take_zero, List.drop_succ_cons, List.drop_zero]
  refine ⟨?_, ?_⟩
  · after_results_simp
    -- a value of the called function is carried between two names of one array type; such a transport is the identity
    have o0 : ∀ p1 p2 p3 (v : (⟨S50000x40, .f32⟩ : BufTy).Contents (Elt Ideal)), (TRef.of (T := ⟨S50000x40, .f32⟩) main_v104 p1 p2 p3).ofBuf v = v := fun _ _ _ _ => rfl
    have t0 : ∀ p1 p2 p3 (v : (⟨S50000x40, .f32⟩ : BufTy).Contents (Elt Ideal)), (TRef.of (T := ⟨S50000x40, .f32⟩) main_v104 p1 p2 p3).toBuf v = v := fun _ _ _ _ => rfl
    have o1 : ∀ p1 p2 p3 (v : (⟨S_, .f32⟩ : BufTy).Contents (Elt Ideal)), (TRef.of (T := ⟨S_, .f32⟩) main_call3_cst p1 p2 p3).ofBuf v = v := fun _ _ _ _ => rfl
    have t1 : ∀ p1 p2 p3 (v : (⟨S_, .f32⟩ : BufTy).Contents (Elt Ideal)), (TRef.of (T := ⟨S_, .f32⟩) main_call3_cst p1 p2 p3).toBuf v = v := fun _ _ _ _ => rfl
    have o2 : ∀ p1 p2 p3 (v : (⟨S50000, .f32⟩ : BufTy).Contents (Elt Ideal)), (TRef.of (T := ⟨S50000, .f32⟩) main_call3_v0 p1 p2 p3).ofBuf v = v := fun _ _ _ _ => rfl
    have t2 : ∀ p1 p2 p3 (v : (⟨S50000, .f32⟩ : BufTy).Contents (Elt Ideal)), (TRef.of (T := ⟨S50000, .f32⟩) main_call3_v0 p1 p2 p3).toBuf v = v := fun _ _ _ _ => rfl
    have o3 : ∀ p1 p2 p3 (v : (⟨S_, .f32⟩ : BufTy).Contents (Elt Ideal)), (TRef.of (T := ⟨S_, .f32⟩) main_call3_cst_0 p1 p2 p3).ofBuf v = v := fun _ _ _ _ => rfl
    have t3 : ∀ p1 p2 p3 (v : (⟨S_, .f32⟩ : BufTy).Contents (Elt Ideal)), (TRef.of (T := ⟨S_, .f32⟩) main_call3_cst_0 p1 p2 p3).toBuf v = v := fun _ _ _ _ => rfl
    have o4 : ∀ p1 p2 p3 (v : (⟨S50000, .f32⟩ : BufTy).Contents (Elt Ideal)), (TRef.of (T := ⟨S50000, .f32⟩) main_call3_v1 p1 p2 p3).ofBuf v = v := fun _ _ _ _ => rfl
    have t4 : ∀ p1 p2 p3 (v : (⟨S50000, .f32⟩ : BufTy).Contents (Elt Ideal)), (TRef.of (T := ⟨S50000, .f32⟩) main_call3_v1 p1 p2 p3).toBuf v = v := fun _ _ _ _ => rfl
    have o5 : ∀ p1 p2 p3 (v : (⟨S50000, .f32⟩ : BufTy).Contents (Elt Ideal)), (TRef.of (T := ⟨S50000, .f32⟩) main_call3_v2 p1 p2 p3).ofBuf v = v := fun _ _ _ _ => rfl
    have t5 : ∀ p1 p2 p3 (v : (⟨S50000, .f32⟩ : BufTy).Contents (Elt Ideal)), (TRef.of (T := ⟨S50000, .f32⟩) main_call3_v2 p1 p2 p3).toBuf v = v := fun _ _ _ _ => rfl
    simp only [o0, t0, o1, t1, o2, t2, o3, t3, o4, t4, o5, t5]
    rfl
  · after_results_simp

/-- The rows' maxima. -/
theorem r10_rowmax (U : Val) : after (T10.take 5) U (Proc.devRef .tc main_call3_v2) = rowMaxR (F := Ideal) (U (Proc.devRef .tc main_v104)) := (st10 U).1
theorem r10_keep_main_v104 (U : Val) : after (T10.take 5) U (Proc.devRef .tc main_v104) = U (Proc.devRef .tc main_v104) := (st10 U).2

end Cert.ReferenceIdeal.Hand

end
-- ==== Proof.RefStage11.lean ====
/-
  Stretch 12 (5): the shift and the exponentials.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st11 (U : Val) :
    (after (T11.take 5) U (Proc.devRef .tc main_call3_v5) = shiftR (F := Ideal) (U (Proc.devRef .tc main_v104)) (U (Proc.devRef .tc main_call3_v2)))
    ∧ (after (T11.take 5) U (Proc.devRef .tc main_call3_v6) = expShiftR (F := Ideal) (U (Proc.devRef .tc main_v104)) (U (Proc.devRef .tc main_call3_v2)))
    ∧ (after (T11.take 5) U (Proc.devRef .tc main_call3_cst_1) = (zeroR (F := Ideal))) := by
  simp only [T1, T2, T3, T4, T5, T6, T7, T8, T9, T10, T11, T12, ops, List.take_succ_cons, List.take_zero, List.drop_succ_cons, List.drop_zero]
  refine ⟨?_, ?_, ?_⟩
  · after_results_simp
    rfl
  · after_results_simp
    rfl
  · after_results_simp
    rfl

/-- The rows shifted by their maxima. -/
theorem r11_shift (U : Val) : after (T11.take 5) U (Proc.devRef .tc main_call3_v5) = shiftR (F := Ideal) (U (Proc.devRef .tc main_v104)) (U (Proc.devRef .tc main_call3_v2)) := (st11 U).1
/-- Their exponentials. -/
theorem r11_exp (U : Val) : after (T11.take 5) U (Proc.devRef .tc main_call3_v6) = expShiftR (F := Ideal) (U (Proc.devRef .tc main_v104)) (U (Proc.devRef .tc main_call3_v2)) := (st11 U).2.1
/-- The zero the row sums start from. -/
theorem r11_zero (U : Val) : after (T11.take 5) U (Proc.devRef .tc main_call3_cst_1) = (zeroR (F := Ideal)) := (st11 U).2.2

end Cert.ReferenceIdeal.Hand

end
-- ==== Proof.RefStage12.lean ====
/-
  Stretch 13 (5): the sums, their logarithm, the difference.
  Read for an arbitrary valuation `U` of the buffers the stretch starts from: what it leaves in the buffers it writes, as
  functions of what it finds, and that it leaves alone the buffers later stretches still read. The stretch's operations are
  evaluated once; the facts are then taken apart.
-/
import proofs.«114802_j66829691125867_2_alg».proof.Proof.RefOps

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- All of this stretch's facts at once. -/
theorem st12 (U : Val) :
    (after (T12) U (Proc.devRef .tc main_v105) = tailR (F := Ideal) (U (Proc.devRef .tc main_call3_v5)) (U (Proc.devRef .tc main_call3_v6)) (U (Proc.devRef .tc main_call3_cst_1))) := by
  simp only [T1, T2, T3, T4, T5, T6, T7, T8, T9, T10, T11, T12, ops, List.take_succ_cons, List.take_zero, List.drop_succ_cons, List.drop_zero]
  after_results_simp
  rfl

/-- The shifted rows less the logarithm of their sums of exponentials. -/
theorem r12_out (U : Val) : after (T12) U (Proc.devRef .tc main_v105) = tailR (F := Ideal) (U (Proc.devRef .tc main_call3_v5)) (U (Proc.devRef .tc main_call3_v6)) (U (Proc.devRef .tc main_call3_cst_1)) := (st12 U)

end Cert.ReferenceIdeal.Hand

end
-- ==== Proof.RefChain.lean ====
/-
  The idealized reference's run, composed.

  The thirteen stretches' facts are chained: each boundary valuation is named in turn, the facts about it are collected from
  the stretch just run (what it wrote, as functions of the launch contents by now; what it kept), and the previous ones are
  dropped. The result buffer ends at `refValue` of the seven arguments.
-/
import proofs.«114802_j66829691125867_2_alg».proof.Proof.RefStage0
import proofs.«114802_j66829691125867_2_alg».proof.Proof.RefStage1
import proofs.«114802_j66829691125867_2_alg».proof.Proof.RefStage2
import proofs.«114802_j66829691125867_2_alg».proof.Proof.RefStage3
import proofs.«114802_j66829691125867_2_alg».proof.Proof.RefStage4
import proofs.«114802_j66829691125867_2_alg».proof.Proof.RefStage5
import proofs.«114802_j66829691125867_2_alg».proof.Proof.RefStage6
import proofs.«114802_j66829691125867_2_alg».proof.Proof.RefStage7
import proofs.«114802_j66829691125867_2_alg».proof.Proof.RefStage8
import proofs.«114802_j66829691125867_2_alg».proof.Proof.RefStage9
import proofs.«114802_j66829691125867_2_alg».proof.Proof.RefStage10
import proofs.«114802_j66829691125867_2_alg».proof.Proof.RefStage11
import proofs.«114802_j66829691125867_2_alg».proof.Proof.RefStage12

set_option Elab.async false
set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
/-- THE RESULT BUFFER after all 150 operations: `refValue` of the seven arguments as the fold found them. -/
theorem ref_out (V : Val) : after (ops (F := Ideal)) V (Proc.devRef .tc main_v105)
    = refValue (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_split (ops (F := Ideal)) 23 V]
  generalize hS0 : after ((ops (F := Ideal)).take 23) V = U0
  have f0_main_v3 : U0 (Proc.devRef .tc main_v3) = rowR (F := Ideal) (V (Proc.devRef .tc main_arg1)) := by rw [← hS0]; exact r0_row V
  have f0_main_v7 : U0 (Proc.devRef .tc main_v7) = colR (F := Ideal) (V (Proc.devRef .tc main_arg1)) := by rw [← hS0]; exact r0_col V
  have f0_main_v9 : U0 (Proc.devRef .tc main_v9) = wR (F := Ideal) (V (Proc.devRef .tc main_arg2)) := by rw [← hS0]; exact r0_w V
  have f0_main_v14 : U0 (Proc.devRef .tc main_v14) = posR (F := Ideal) (degR (F := Ideal) (colR (F := Ideal) (V (Proc.devRef .tc main_arg1))) (wR (F := Ideal) (V (Proc.devRef .tc main_arg2)))) := by rw [← hS0]; exact r0_pos V
  have f0_main_v17 : U0 (Proc.devRef .tc main_v17) = rsqR (F := Ideal) (degR (F := Ideal) (colR (F := Ideal) (V (Proc.devRef .tc main_arg1))) (wR (F := Ideal) (V (Proc.devRef .tc main_arg2)))) := by rw [← hS0]; exact r0_rsqrt V
  have f0_main_cst_3 : U0 (Proc.devRef .tc main_cst_3) = (zeroR (F := Ideal)) := by rw [← hS0]; exact r0_zero V
  have k0_main_arg0 : U0 (Proc.devRef .tc main_arg0) = (V (Proc.devRef .tc main_arg0)) := by rw [← hS0]; exact r0_keep_main_arg0 V
  have k0_main_arg1 : U0 (Proc.devRef .tc main_arg1) = (V (Proc.devRef .tc main_arg1)) := by rw [← hS0]; exact r0_keep_main_arg1 V
  have k0_main_arg2 : U0 (Proc.devRef .tc main_arg2) = (V (Proc.devRef .tc main_arg2)) := by rw [← hS0]; exact r0_keep_main_arg2 V
  have k0_main_arg3 : U0 (Proc.devRef .tc main_arg3) = (V (Proc.devRef .tc main_arg3)) := by rw [← hS0]; exact r0_keep_main_arg3 V
  have k0_main_arg4 : U0 (Proc.devRef .tc main_arg4) = (V (Proc.devRef .tc main_arg4)) := by rw [← hS0]; exact r0_keep_main_arg4 V
  have k0_main_arg5 : U0 (Proc.devRef .tc main_arg5) = (V (Proc.devRef .tc main_arg5)) := by rw [← hS0]; exact r0_keep_main_arg5 V
  have k0_main_arg6 : U0 (Proc.devRef .tc main_arg6) = (V (Proc.devRef .tc main_arg6)) := by rw [← hS0]; exact r0_keep_main_arg6 V
  clear hS0
  show after T1 U0 (Proc.devRef .tc main_v105) = _
  rw [after_split T1 3 U0]
  generalize hS1 : after (T1.take 3) U0 = U1
  have f1_main_v18 : U1 (Proc.devRef .tc main_v18) = select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal))) := by
    rw [← hS1, r1_dinv U0, f0_main_v14, f0_main_v17, f0_main_cst_3]
  have k1_main_v3 : U1 (Proc.devRef .tc main_v3) = rowR (F := Ideal) (V (Proc.devRef .tc main_arg1)) := by rw [← hS1, r1_keep_main_v3 U0, f0_main_v3]
  have k1_main_v7 : U1 (Proc.devRef .tc main_v7) = colR (F := Ideal) (V (Proc.devRef .tc main_arg1)) := by rw [← hS1, r1_keep_main_v7 U0, f0_main_v7]
  have k1_main_v9 : U1 (Proc.devRef .tc main_v9) = wR (F := Ideal) (V (Proc.devRef .tc main_arg2)) := by rw [← hS1, r1_keep_main_v9 U0, f0_main_v9]
  have k1_main_arg0 : U1 (Proc.devRef .tc main_arg0) = (V (Proc.devRef .tc main_arg0)) := by rw [← hS1, r1_keep_main_arg0 U0, k0_main_arg0]
  have k1_main_arg1 : U1 (Proc.devRef .tc main_arg1) = (V (Proc.devRef .tc main_arg1)) := by rw [← hS1, r1_keep_main_arg1 U0, k0_main_arg1]
  have k1_main_arg2 : U1 (Proc.devRef .tc main_arg2) = (V (Proc.devRef .tc main_arg2)) := by rw [← hS1, r1_keep_main_arg2 U0, k0_main_arg2]
  have k1_main_arg3 : U1 (Proc.devRef .tc main_arg3) = (V (Proc.devRef .tc main_arg3)) := by rw [← hS1, r1_keep_main_arg3 U0, k0_main_arg3]
  have k1_main_arg4 : U1 (Proc.devRef .tc main_arg4) = (V (Proc.devRef .tc main_arg4)) := by rw [← hS1, r1_keep_main_arg4 U0, k0_main_arg4]
  have k1_main_arg5 : U1 (Proc.devRef .tc main_arg5) = (V (Proc.devRef .tc main_arg5)) := by rw [← hS1, r1_keep_main_arg5 U0, k0_main_arg5]
  have k1_main_arg6 : U1 (Proc.devRef .tc main_arg6) = (V (Proc.devRef .tc main_arg6)) := by rw [← hS1, r1_keep_main_arg6 U0, k0_main_arg6]
  clear hS1 f0_main_v3 f0_main_v7 f0_main_v9 f0_main_v14 f0_main_v17 f0_main_cst_3 k0_main_arg0 k0_main_arg1 k0_main_arg2 k0_main_arg3 k0_main_arg4 k0_main_arg5 k0_main_arg6
  show after T2 U1 (Proc.devRef .tc main_v105) = _
  rw [after_split T2 20 U1]
  generalize hS2 : after (T2.take 20) U1 = U2
  have f2_main_v34 : U2 (Proc.devRef .tc main_v34) = normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))) := by
    rw [← hS2, r2_norm U1, f1_main_v18, k1_main_v3, k1_main_v7, k1_main_v9]
  have k2_main_v3 : U2 (Proc.devRef .tc main_v3) = rowR (F := Ideal) (V (Proc.devRef .tc main_arg1)) := by rw [← hS2, r2_keep_main_v3 U1, k1_main_v3]
  have k2_main_v7 : U2 (Proc.devRef .tc main_v7) = colR (F := Ideal) (V (Proc.devRef .tc main_arg1)) := by rw [← hS2, r2_keep_main_v7 U1, k1_main_v7]
  have k2_main_arg0 : U2 (Proc.devRef .tc main_arg0) = (V (Proc.devRef .tc main_arg0)) := by rw [← hS2, r2_keep_main_arg0 U1, k1_main_arg0]
  have k2_main_arg1 : U2 (Proc.devRef .tc main_arg1) = (V (Proc.devRef .tc main_arg1)) := by rw [← hS2, r2_keep_main_arg1 U1, k1_main_arg1]
  have k2_main_arg2 : U2 (Proc.devRef .tc main_arg2) = (V (Proc.devRef .tc main_arg2)) := by rw [← hS2, r2_keep_main_arg2 U1, k1_main_arg2]
  have k2_main_arg3 : U2 (Proc.devRef .tc main_arg3) = (V (Proc.devRef .tc main_arg3)) := by rw [← hS2, r2_keep_main_arg3 U1, k1_main_arg3]
  have k2_main_arg4 : U2 (Proc.devRef .tc main_arg4) = (V (Proc.devRef .tc main_arg4)) := by rw [← hS2, r2_keep_main_arg4 U1, k1_main_arg4]
  have k2_main_arg5 : U2 (Proc.devRef .tc main_arg5) = (V (Proc.devRef .tc main_arg5)) := by rw [← hS2, r2_keep_main_arg5 U1, k1_main_arg5]
  have k2_main_arg6 : U2 (Proc.devRef .tc main_arg6) = (V (Proc.devRef .tc main_arg6)) := by rw [← hS2, r2_keep_main_arg6 U1, k1_main_arg6]
  clear hS2 f1_main_v18 k1_main_v3 k1_main_v7 k1_main_v9 k1_main_arg0 k1_main_arg1 k1_main_arg2 k1_main_arg3 k1_main_arg4 k1_main_arg5 k1_main_arg6
  show after T3 U2 (Proc.devRef .tc main_v105) = _
  rw [after_split T3 17 U2]
  generalize hS3 : after (T3.take 17) U2 = U3
  have f3_main_v48 : U3 (Proc.devRef .tc main_v48) = aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2)))) := by
    rw [← hS3, r3_agg U2, k2_main_arg0, k2_main_arg3, k2_main_v3, k2_main_v7, f2_main_v34]
  have k3_main_arg1 : U3 (Proc.devRef .tc main_arg1) = (V (Proc.devRef .tc main_arg1)) := by rw [← hS3, r3_keep_main_arg1 U2, k2_main_arg1]
  have k3_main_arg2 : U3 (Proc.devRef .tc main_arg2) = (V (Proc.devRef .tc main_arg2)) := by rw [← hS3, r3_keep_main_arg2 U2, k2_main_arg2]
  have k3_main_arg4 : U3 (Proc.devRef .tc main_arg4) = (V (Proc.devRef .tc main_arg4)) := by rw [← hS3, r3_keep_main_arg4 U2, k2_main_arg4]
  have k3_main_arg5 : U3 (Proc.devRef .tc main_arg5) = (V (Proc.devRef .tc main_arg5)) := by rw [← hS3, r3_keep_main_arg5 U2, k2_main_arg5]
  have k3_main_arg6 : U3 (Proc.devRef .tc main_arg6) = (V (Proc.devRef .tc main_arg6)) := by rw [← hS3, r3_keep_main_arg6 U2, k2_main_arg6]
  clear hS3 f2_main_v34 k2_main_v3 k2_main_v7 k2_main_arg0 k2_main_arg1 k2_main_arg2 k2_main_arg3 k2_main_arg4 k2_main_arg5 k2_main_arg6
  show after T4 U3 (Proc.devRef .tc main_v105) = _
  rw [after_split T4 6 U3]
  generalize hS4 : after (T4.take 6) U3 = U4
  have f4_main_v52 : U4 (Proc.devRef .tc main_v52) = biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4)) := by
    rw [← hS4, r4_relu U3, f3_main_v48, k3_main_arg4]
  have k4_main_arg1 : U4 (Proc.devRef .tc main_arg1) = (V (Proc.devRef .tc main_arg1)) := by rw [← hS4, r4_keep_main_arg1 U3, k3_main_arg1]
  have k4_main_arg2 : U4 (Proc.devRef .tc main_arg2) = (V (Proc.devRef .tc main_arg2)) := by rw [← hS4, r4_keep_main_arg2 U3, k3_main_arg2]
  have k4_main_arg5 : U4 (Proc.devRef .tc main_arg5) = (V (Proc.devRef .tc main_arg5)) := by rw [← hS4, r4_keep_main_arg5 U3, k3_main_arg5]
  have k4_main_arg6 : U4 (Proc.devRef .tc main_arg6) = (V (Proc.devRef .tc main_arg6)) := by rw [← hS4, r4_keep_main_arg6 U3, k3_main_arg6]
  clear hS4 f3_main_v48 k3_main_arg1 k3_main_arg2 k3_main_arg4 k3_main_arg5 k3_main_arg6
  show after T5 U4 (Proc.devRef .tc main_v105) = _
  rw [after_split T5 23 U4]
  generalize hS5 : after (T5.take 23) U4 = U5
  have f5_main_v56 : U5 (Proc.devRef .tc main_v56) = rowR (F := Ideal) (V (Proc.devRef .tc main_arg1)) := by
    rw [← hS5, r5_row U4, k4_main_arg1]
  have f5_main_v60 : U5 (Proc.devRef .tc main_v60) = colR (F := Ideal) (V (Proc.devRef .tc main_arg1)) := by
    rw [← hS5, r5_col U4, k4_main_arg1]
  have f5_main_v62 : U5 (Proc.devRef .tc main_v62) = wR (F := Ideal) (V (Proc.devRef .tc main_arg2)) := by
    rw [← hS5, r5_w U4, k4_main_arg2]
  have f5_main_v67 : U5 (Proc.devRef .tc main_v67) = posR (F := Ideal) (degR (F := Ideal) (colR (F := Ideal) (V (Proc.devRef .tc main_arg1))) (wR (F := Ideal) (V (Proc.devRef .tc main_arg2)))) := by
    rw [← hS5, r5_pos U4, k4_main_arg1, k4_main_arg2]
  have f5_main_v70 : U5 (Proc.devRef .tc main_v70) = rsqR (F := Ideal) (degR (F := Ideal) (colR (F := Ideal) (V (Proc.devRef .tc main_arg1))) (wR (F := Ideal) (V (Proc.devRef .tc main_arg2)))) := by
    rw [← hS5, r5_rsqrt U4, k4_main_arg1, k4_main_arg2]
  have f5_main_cst_14 : U5 (Proc.devRef .tc main_cst_14) = (zeroR (F := Ideal)) := by
    rw [← hS5, r5_zero U4]
  have k5_main_v52 : U5 (Proc.devRef .tc main_v52) = biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4)) := by rw [← hS5, r5_keep_main_v52 U4, f4_main_v52]
  have k5_main_arg5 : U5 (Proc.devRef .tc main_arg5) = (V (Proc.devRef .tc main_arg5)) := by rw [← hS5, r5_keep_main_arg5 U4, k4_main_arg5]
  have k5_main_arg6 : U5 (Proc.devRef .tc main_arg6) = (V (Proc.devRef .tc main_arg6)) := by rw [← hS5, r5_keep_main_arg6 U4, k4_main_arg6]
  clear hS5 f4_main_v52 k4_main_arg1 k4_main_arg2 k4_main_arg5 k4_main_arg6
  show after T6 U5 (Proc.devRef .tc main_v105) = _
  rw [after_split T6 3 U5]
  generalize hS6 : after (T6.take 3) U5 = U6
  have f6_main_v71 : U6 (Proc.devRef .tc main_v71) = select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal))) := by
    rw [← hS6, r6_dinv U5, f5_main_v67, f5_main_v70, f5_main_cst_14]
  have k6_main_v52 : U6 (Proc.devRef .tc main_v52) = biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4)) := by rw [← hS6, r6_keep_main_v52 U5, k5_main_v52]
  have k6_main_v56 : U6 (Proc.devRef .tc main_v56) = rowR (F := Ideal) (V (Proc.devRef .tc main_arg1)) := by rw [← hS6, r6_keep_main_v56 U5, f5_main_v56]
  have k6_main_v60 : U6 (Proc.devRef .tc main_v60) = colR (F := Ideal) (V (Proc.devRef .tc main_arg1)) := by rw [← hS6, r6_keep_main_v60 U5, f5_main_v60]
  have k6_main_v62 : U6 (Proc.devRef .tc main_v62) = wR (F := Ideal) (V (Proc.devRef .tc main_arg2)) := by rw [← hS6, r6_keep_main_v62 U5, f5_main_v62]
  have k6_main_arg5 : U6 (Proc.devRef .tc main_arg5) = (V (Proc.devRef .tc main_arg5)) := by rw [← hS6, r6_keep_main_arg5 U5, k5_main_arg5]
  have k6_main_arg6 : U6 (Proc.devRef .tc main_arg6) = (V (Proc.devRef .tc main_arg6)) := by rw [← hS6, r6_keep_main_arg6 U5, k5_main_arg6]
  clear hS6 f5_main_v56 f5_main_v60 f5_main_v62 f5_main_v67 f5_main_v70 f5_main_cst_14 k5_main_v52 k5_main_arg5 k5_main_arg6
  show after T7 U6 (Proc.devRef .tc main_v105) = _
  rw [after_split T7 20 U6]
  generalize hS7 : after (T7.take 20) U6 = U7
  have f7_main_v87 : U7 (Proc.devRef .tc main_v87) = normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))) := by
    rw [← hS7, r7_norm U6, f6_main_v71, k6_main_v56, k6_main_v60, k6_main_v62]
  have k7_main_v52 : U7 (Proc.devRef .tc main_v52) = biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4)) := by rw [← hS7, r7_keep_main_v52 U6, k6_main_v52]
  have k7_main_v56 : U7 (Proc.devRef .tc main_v56) = rowR (F := Ideal) (V (Proc.devRef .tc main_arg1)) := by rw [← hS7, r7_keep_main_v56 U6, k6_main_v56]
  have k7_main_v60 : U7 (Proc.devRef .tc main_v60) = colR (F := Ideal) (V (Proc.devRef .tc main_arg1)) := by rw [← hS7, r7_keep_main_v60 U6, k6_main_v60]
  have k7_main_arg5 : U7 (Proc.devRef .tc main_arg5) = (V (Proc.devRef .tc main_arg5)) := by rw [← hS7, r7_keep_main_arg5 U6, k6_main_arg5]
  have k7_main_arg6 : U7 (Proc.devRef .tc main_arg6) = (V (Proc.devRef .tc main_arg6)) := by rw [← hS7, r7_keep_main_arg6 U6, k6_main_arg6]
  clear hS7 f6_main_v71 k6_main_v52 k6_main_v56 k6_main_v60 k6_main_v62 k6_main_arg5 k6_main_arg6
  show after T8 U7 (Proc.devRef .tc main_v105) = _
  rw [after_split T8 17 U7]
  generalize hS8 : after (T8.take 17) U7 = U8
  have f8_main_v101 : U8 (Proc.devRef .tc main_v101) = aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2)))) := by
    rw [← hS8, r8_agg U7, k7_main_v52, k7_main_arg5, k7_main_v56, k7_main_v60, f7_main_v87]
  have k8_main_arg6 : U8 (Proc.devRef .tc main_arg6) = (V (Proc.devRef .tc main_arg6)) := by rw [← hS8, r8_keep_main_arg6 U7, k7_main_arg6]
  clear hS8 f7_main_v87 k7_main_v52 k7_main_v56 k7_main_v60 k7_main_arg5 k7_main_arg6
  show after T9 U8 (Proc.devRef .tc main_v105) = _
  rw [after_split T9 3 U8]
  generalize hS9 : after (T9.take 3) U8 = U9
  have f9_main_v104 : U9 (Proc.devRef .tc main_v104) = biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6)) := by
    rw [← hS9, r9_bias U8, f8_main_v101, k8_main_arg6]
  clear hS9 f8_main_v101 k8_main_arg6
  show after T10 U9 (Proc.devRef .tc main_v105) = _
  rw [after_split T10 5 U9]
  generalize hS10 : after (T10.take 5) U9 = U10
  have f10_main_call3_v2 : U10 (Proc.devRef .tc main_call3_v2) = rowMaxR (F := Ideal) (biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6))) := by
    rw [← hS10, r10_rowmax U9, f9_main_v104]
  have k10_main_v104 : U10 (Proc.devRef .tc main_v104) = biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6)) := by rw [← hS10, r10_keep_main_v104 U9, f9_main_v104]
  clear hS10 f9_main_v104
  show after T11 U10 (Proc.devRef .tc main_v105) = _
  rw [after_split T11 5 U10]
  generalize hS11 : after (T11.take 5) U10 = U11
  have f11_main_call3_v5 : U11 (Proc.devRef .tc main_call3_v5) = shiftR (F := Ideal) (biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6))) (rowMaxR (F := Ideal) (biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6)))) := by
    rw [← hS11, r11_shift U10, k10_main_v104, f10_main_call3_v2]
  have f11_main_call3_v6 : U11 (Proc.devRef .tc main_call3_v6) = expShiftR (F := Ideal) (biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6))) (rowMaxR (F := Ideal) (biasR40 (F := Ideal) (aggR40 (F := Ideal) (dot2R (F := Ideal) (biasReluR (F := Ideal) (aggR128 (F := Ideal) (dot1R (F := Ideal) (V (Proc.devRef .tc main_arg0)) (V (Proc.devRef .tc main_arg3))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg4))) (V (Proc.devRef .tc main_arg5))) (rowR (F := Ideal) (V (Proc.devRef .tc main_arg1))) (colR (F := Ideal) (V (Proc.devRef .tc main_arg1))) (normR (F := Ideal) (select (posR (F := Ideal) (degR (F := Ideal) (colR (F := Ideal) (V (Proc.devRef .tc main_arg1))) (wR (F := Ideal) (V (Proc.devRef .tc main_arg2))))) (rsqR (F := Ideal) (degR (F := Ideal) (colR (F := Ideal) (V (Proc.devRef .tc main_arg1))) (wR (F := Ideal) (V (Proc.devRef .tc main_arg2))))) (whereZeroR (F := Ideal) (zeroR (F := Ideal)))) (rowR (F := Ideal) (V (Proc.devRef .tc main_arg1))) (colR (F := Ideal) (V (Proc.devRef .tc main_arg1))) (wR (F := Ideal) (V (Proc.devRef .tc main_arg2))))) (V (Proc.devRef .tc main_arg6)))) := by
    rw [← hS11, r11_exp U10, k10_main_v104, f10_main_call3_v2]
  have f11_main_call3_cst_1 : U11 (Proc.devRef .tc main_call3_cst_1) = (zeroR (F := Ideal)) := by
    rw [← hS11, r11_zero U10]
  clear hS11 f10_main_call3_v2 k10_main_v104
  show after T12 U11 (Proc.devRef .tc main_v105) = _
  rw [r12_out U11, f11_main_call3_v5, f11_main_call3_v6, f11_main_call3_cst_1]
  rfl

end Cert.ReferenceIdeal.Hand

end
-- ==== Proof.RefKeep.lean ====
/-
  The reference's 150 operations leave the seven argument arrays alone: no operation writes an argument buffer, so the
  fold of the operations' results, read at an argument, is what the fold started from.
-/
import proofs.«114802_j66829691125867_2_alg».proof.Proof.RunP
import Idealize.ShloMosaic.PureOps.Ideal

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 4000000 in
theorem ops_keep_arg0 (V : Valuation τ sig (Elt F)) : after (ops (F := F)) V (Proc.devRef .tc main_arg0) = V (Proc.devRef .tc main_arg0) := by
  after_results_simp

set_option maxHeartbeats 4000000 in
theorem ops_keep_arg1 (V : Valuation τ sig (Elt F)) : after (ops (F := F)) V (Proc.devRef .tc main_arg1) = V (Proc.devRef .tc main_arg1) := by
  after_results_simp

set_option maxHeartbeats 4000000 in
theorem ops_keep_arg2 (V : Valuation τ sig (Elt F)) : after (ops (F := F)) V (Proc.devRef .tc main_arg2) = V (Proc.devRef .tc main_arg2) := by
  after_results_simp

set_option maxHeartbeats 4000000 in
theorem ops_keep_arg3 (V : Valuation τ sig (Elt F)) : after (ops (F := F)) V (Proc.devRef .tc main_arg3) = V (Proc.devRef .tc main_arg3) := by
  after_results_simp

set_option maxHeartbeats 4000000 in
theorem ops_keep_arg4 (V : Valuation τ sig (Elt F)) : after (ops (F := F)) V (Proc.devRef .tc main_arg4) = V (Proc.devRef .tc main_arg4) := by
  after_results_simp

set_option maxHeartbeats 4000000 in
theorem ops_keep_arg5 (V : Valuation τ sig (Elt F)) : after (ops (F := F)) V (Proc.devRef .tc main_arg5) = V (Proc.devRef .tc main_arg5) := by
  after_results_simp

set_option maxHeartbeats 4000000 in
theorem ops_keep_arg6 (V : Valuation τ sig (Elt F)) : after (ops (F := F)) V (Proc.devRef .tc main_arg6) = V (Proc.devRef .tc main_arg6) := by
  after_results_simp

end Cert.ReferenceIdeal.Hand

end
-- ==== Proof.BridgeHost.lean ====
/-
  The two programs' host operations are the same functions.

  Both programs build the source and target indices, the weights with the self loops' ones, the degrees, their inverse
  square roots and the edges' normalisation by the same operations, and aggregate a stage over the edges by the same
  gather, scaling and scatter-add. The two texts differ only in which printed program's dimension records and shape
  names they use; those have the same fields, so the functions are equal by unfolding.
-/
import proofs.«114802_j66829691125867_2_alg».proof.Proof.KernelChain
import proofs.«114802_j66829691125867_2_alg».proof.Proof.RefOps

set_option Elab.async false
set_option maxRecDepth 16384

noncomputable section

namespace Cert.Bridge

open Cert.ReferenceIdeal Cert.ReferenceIdeal.Gen
open Idealize.ShloMosaic Idealize.ShloMosaic.ValueIdx

/-! ## The host operations are the same functions -/

theorem row_eq (x1 : (⟨S2x800000, .i32⟩ : BufTy).Contents (Elt Ideal)) : Cert.ReferenceIdeal.Hand.rowR (F := Ideal) x1 = Cert.KernelIdeal.Hand.rowK (F := Ideal) x1 := rfl
theorem col_eq (x1 : (⟨S2x800000, .i32⟩ : BufTy).Contents (Elt Ideal)) : Cert.ReferenceIdeal.Hand.colR (F := Ideal) x1 = Cert.KernelIdeal.Hand.colK (F := Ideal) x1 := rfl
theorem normOf_eq (x1 : (⟨S2x800000, .i32⟩ : BufTy).Contents (Elt Ideal)) (x2 : FVec Ideal S800000 .f32) :
    Cert.ReferenceIdeal.Hand.normOfR (F := Ideal) x1 x2 = Cert.KernelIdeal.Hand.normOfK (F := Ideal) x1 x2 := rfl
theorem agg128_eq (h : FVec Ideal S50000x128 .f32) (row col : (⟨S850000, .i32⟩ : BufTy).Contents (Elt Ideal)) (norm : FVec Ideal S850000 .f32) :
    Cert.ReferenceIdeal.Hand.aggR128 (F := Ideal) h row col norm = Cert.KernelIdeal.Hand.aggK128 (F := Ideal) h row col norm := rfl
theorem agg40_eq (h : FVec Ideal S50000x40 .f32) (row col : (⟨S850000, .i32⟩ : BufTy).Contents (Elt Ideal)) (norm : FVec Ideal S850000 .f32) :
    Cert.ReferenceIdeal.Hand.aggR40 (F := Ideal) h row col norm = Cert.KernelIdeal.Hand.aggK40 (F := Ideal) h row col norm := rfl

end Cert.Bridge

end
-- ==== Proof.BridgeDense.lean ====
/-
  The reference's two matrix products, read index by index on the extended reals.

    * Its first product is `Σ_k x[i,k]·w[k,j]`: the kernel's first region.
    * Its bias, positive part and second product is `Σ_k max (a[i,k] + b[k]) 0 · w[k,j]`: the kernel's second region,
      where the kernel reads the bias through a 1×128 reshape and the reference through two broadcasts.
-/
import proofs.«114802_j66829691125867_2_alg».proof.Proof.KernelChain
import proofs.«114802_j66829691125867_2_alg».proof.Proof.RefOps
import proofs.«114802_j66829691125867_2_alg».proof.Proof.LibPlainDot
import proofs.«114802_j66829691125867_2_alg».proof.Proof.Spec
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

set_option Elab.async false
set_option maxRecDepth 16384

noncomputable section

namespace Cert.Bridge

open Cert.ReferenceIdeal Cert.ReferenceIdeal.Gen
open Idealize.ShloMosaic Idealize.ShloMosaic.ValueIdx

/-! ## The first product -/

theorem dot1_eq (x0 : FVec Ideal S50000x512 .f32) (x3 : FVec Ideal S512x128 .f32) :
    Cert.ReferenceIdeal.Hand.dot1R (F := Ideal) x0 x3 = Cert.Spec.matProd 50000 512 128 x0 x3 := by
  funext i
  obtain ⟨p, q, rfl⟩ : ∃ (p : Fin 50000) (q : Fin 128), i = ix2 p q := ⟨i 0, i 1, eq_ix2 i⟩
  exact Cert.Lib.plain_dotGeneral_apply 50000 512 128 none x0 x3 p q

/-! ## Bias, positive part, second product -/

/-- The first bias spread down the rows, read: the reference's two broadcasts. -/
theorem bias128_read (x4 : FVec Ideal S128 .f32) (p : Fin 50000) (k : Fin 128) :
    broadcastInDim S50000x128 ![0, 1] bcast_S1x128_S50000x128_0_1 (broadcastInDim S1x128 ![1] bcast_S128_S1x128_1 x4) (ix2 p k) = x4 (ix1 k) :=
  (broadcastInDim_apply _ bcast_S1x128_S50000x128_0_1 _ (ix2 p k) (ix2 (0 : Fin 1) k) (fun a => match a with
    | ⟨0, _⟩ => rfl
    | ⟨1, _⟩ => by show k.val = if (128 : Nat) = 1 then 0 else k.val; rw [if_neg (by decide)])).trans
  (broadcastInDim_apply _ bcast_S128_S1x128_1 x4 (ix2 (0 : Fin 1) k) (ix1 k) (fun a => match a with
    | ⟨0, _⟩ => by show k.val = if (128 : Nat) = 1 then 0 else k.val; rw [if_neg (by decide)]))

/-- The zero the positive part is taken with, read. -/
theorem zeros128_read (i : S50000x128.Idx) :
    broadcastInDim S50000x128 ![] bcast_S_S50000x128 (constant (F := Ideal) S_ .f32 0x00000000#32) i = Ideal.ofBits .f32 0x00000000#32 :=
  broadcastInDim_apply _ bcast_S_S50000x128 _ i ix0 (fun a => a.elim0)

/-- The reference's biased, clipped aggregate at an index. -/
theorem biasRelu_read (A : FVec Ideal S50000x128 .f32) (x4 : FVec Ideal S128 .f32) (p : Fin 50000) (k : Fin 128) :
    Cert.ReferenceIdeal.Hand.biasReluR (F := Ideal) A x4 (ix2 p k) = max (A (ix2 p k) + x4 (ix1 k)) (Ideal.ofBits .f32 0x00000000#32) := by
  show FloatOps.maximumf (F := Ideal) (φ := .f32)
      (FloatOps.addf (F := Ideal) (φ := .f32) (A (ix2 p k))
        (broadcastInDim S50000x128 ![0, 1] bcast_S1x128_S50000x128_0_1 (broadcastInDim S1x128 ![1] bcast_S128_S1x128_1 x4) (ix2 p k)))
      (broadcastInDim S50000x128 ![] bcast_S_S50000x128 (constant (F := Ideal) S_ .f32 0x00000000#32) (ix2 p k)) = _
  rw [bias128_read, zeros128_read]
  rfl

theorem layer_eq (A : FVec Ideal S50000x128 .f32) (x4 : FVec Ideal S128 .f32) (x5 : FVec Ideal S128x40 .f32) :
    Cert.ReferenceIdeal.Hand.dot2R (F := Ideal) (Cert.ReferenceIdeal.Hand.biasReluR (F := Ideal) A x4) x5
      = Cert.KernelIdeal.Hand.dense1 A x5 (shapeCast Cert.KernelIdeal.S1x128 x4 Cert.KernelIdeal.Gen.shapeCasts_S128_S1x128) := by
  funext i
  obtain ⟨p, q, rfl⟩ : ∃ (p : Fin 50000) (q : Fin 40), i = ix2 p q := ⟨i 0, i 1, eq_ix2 i⟩
  refine (Cert.Lib.plain_dotGeneral_apply 50000 128 40 none (Cert.ReferenceIdeal.Hand.biasReluR (F := Ideal) A x4) x5 p q).trans ?_
  rw [Cert.KernelIdeal.Hand.dense1_apply]
  refine Finset.sum_congr rfl fun k _ => ?_
  rw [biasRelu_read, shapeCast_a_1a_apply]

end Cert.Bridge

end
-- ==== Proof.BridgeSoftmax.lean ====
/-
  The reference's row-wise logarithm of the softmax, read index by index on the extended reals.

  It takes each row's maximum from `-∞`, once more against `-∞` (which changes nothing), subtracts it, and subtracts the
  logarithm of the row's sum of exponentials (a sum started at zero): the kernel's third region. The second bias reaches
  the rows through two broadcasts in the reference and through a 1×40 reshape in the kernel.
-/
import proofs.«114802_j66829691125867_2_alg».proof.Proof.KernelChain
import proofs.«114802_j66829691125867_2_alg».proof.Proof.RefOps
import proofs.«114802_j66829691125867_2_alg».proof.Proof.Spec
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

set_option Elab.async false
set_option maxRecDepth 16384

noncomputable section

namespace Cert.Bridge

open Cert.ReferenceIdeal Cert.ReferenceIdeal.Gen
open Idealize.ShloMosaic Idealize.ShloMosaic.ValueIdx

/-! ## The logarithm of the softmax -/

/-- The reduction over the columns of a 50000×40 array, as the index bookkeeping the sums and maxima are read with. -/
theorem redR : Shape.Reduces S50000x40 [1] S50000 := by decide

theorem lift_rowR (p : Fin 50000) (k : Fin 40) : redR.lift (ix1 p) k = (ix2 p k : S50000x40.Idx) := by
  funext a
  apply Fin.ext
  match a with
  | ⟨0, _⟩ => rfl
  | ⟨1, _⟩ => rfl

/-- A per-row quantity spread back over its row, read. -/
theorem spreadR_read (v : FVec Ideal S50000 .f32) (p : Fin 50000) (c : Fin 40) : Cert.ReferenceIdeal.Hand.spreadR (F := Ideal) v (ix2 p c) = v (ix1 p) :=
  (broadcastInDim_apply _ bcast_S50000x1_S50000x40_0_1 _ (ix2 p c) (ix2 p (0 : Fin 1)) (fun a => match a with
    | ⟨0, _⟩ => by show p.val = if (50000 : Nat) = 1 then 0 else p.val; rw [if_neg (by decide)]
    | ⟨1, _⟩ => rfl)).trans
  (broadcastInDim_apply _ bcast_S50000_S50000x1_0 v (ix2 p (0 : Fin 1)) (ix1 p) (fun a => match a with
    | ⟨0, _⟩ => by show p.val = if (50000 : Nat) = 1 then 0 else p.val; rw [if_neg (by decide)]))

/-- The host's max-reduce over the columns, read: the fold of `max` over the row from `-∞`'s word. -/
theorem hostRowMaxR_read (X : FVec Ideal S50000x40 .f32) (p : Fin 50000) :
    Cert.ReferenceIdeal.Hand.hostRowMaxR (F := Ideal) X (ix1 p) = Cert.Spec.rowMax (Ideal.ofBits .f32 0xFF800000#32) (Cert.Spec.rowOf X p) := by
  unfold Cert.ReferenceIdeal.Hand.hostRowMaxR
  rw [Host.reduce_eq_fold_single _ _ _ _ redR _ (ix1 p)]
  have hf : (X ∘ redR.lift (ix1 p) : Fin 40 → EReal) = Cert.Spec.rowOf X p := funext fun k => congrArg X (lift_rowR p k)
  exact congrArg (Cert.Spec.rowMax (Ideal.ofBits .f32 0xFF800000#32)) hf

/-- The rows' maxima, read: the second maximum with `-∞`'s word is absorbed. -/
theorem rowMaxR_read (X : FVec Ideal S50000x40 .f32) (p : Fin 50000) :
    Cert.ReferenceIdeal.Hand.rowMaxR (F := Ideal) X (ix1 p) = Cert.Spec.rowMax (Ideal.ofBits .f32 0xFF800000#32) (Cert.Spec.rowOf X p) := by
  rw [Cert.ReferenceIdeal.Hand.rowMaxR_apply, hostRowMaxR_read, broadcastInDim_apply _ bcast_S_S50000 _ (ix1 p) ix0 (fun a => a.elim0)]
  exact Cert.Spec.maximumf_start_rowMax _ _

/-- The rows' sums, read: the sum over the row (the sum starts at the zero word). -/
theorem rowSumR_read (E : FVec Ideal S50000x40 .f32) (p : Fin 50000) :
    Host.reduceAdd (F := Ideal) E (Cert.ReferenceIdeal.Hand.zeroR (F := Ideal)) reducesTo_S50000x40_S50000_d1 h_S_ (ix1 p) = ∑ k : Fin 40, E (ix2 p k) := by
  rw [hostReduceAdd_apply, Ideal.hostReduceAdd_single reducesTo_S50000x40_S50000_d1 redR]
  rw [show (Cert.ReferenceIdeal.Hand.zeroR (F := Ideal)) (Shape.Idx.first h_S_) = (0 : EReal) from Ideal.ofBits_zero_f32, zero_add]
  exact Finset.sum_congr rfl fun k _ => congrArg E (lift_rowR p k)

/-- The shifted row entry. -/
theorem shifted_read (X : FVec Ideal S50000x40 .f32) (p : Fin 50000) (k : Fin 40) :
    Cert.ReferenceIdeal.Hand.shiftR (F := Ideal) X (Cert.ReferenceIdeal.Hand.rowMaxR (F := Ideal) X) (ix2 p k)
      = X (ix2 p k) - Cert.Spec.rowMax (Ideal.ofBits .f32 0xFF800000#32) (Cert.Spec.rowOf X p) := by
  rw [Cert.ReferenceIdeal.Hand.shiftR_apply, spreadR_read, rowMaxR_read, Ideal.subf_def]

/-- The logarithm of the rows' sums, spread over the rows, read. -/
theorem logsum_read (E : FVec Ideal S50000x40 .f32) (p : Fin 50000) (q : Fin 40) :
    (broadcastInDim S50000x40 ![0, 1] bcast_S50000x1_S50000x40_0_1 (Host.log (Cert.ReferenceIdeal.Hand.rowSumColR (F := Ideal) E (Cert.ReferenceIdeal.Hand.zeroR (F := Ideal)))) : FVec Ideal S50000x40 .f32) (ix2 p q)
      = Ideal.log (∑ k : Fin 40, E (ix2 p k)) := by
  rw [broadcastInDim_apply _ bcast_S50000x1_S50000x40_0_1 _ (ix2 p q) (ix2 p (0 : Fin 1)) (fun a => match a with
      | ⟨0, _⟩ => by show p.val = if (50000 : Nat) = 1 then 0 else p.val; rw [if_neg (by decide)]
      | ⟨1, _⟩ => rfl),
    Cert.ReferenceIdeal.Hand.hostLog_apply]
  unfold Cert.ReferenceIdeal.Hand.rowSumColR
  rw [broadcastInDim_apply _ bcast_S50000_S50000x1_0 _ (ix2 p (0 : Fin 1)) (ix1 p) (fun a => match a with
      | ⟨0, _⟩ => by show p.val = if (50000 : Nat) = 1 then 0 else p.val; rw [if_neg (by decide)]),
    rowSumR_read, Ideal.hostUnary_log_def]

/-- The reference's logarithm of the softmax, read. -/
theorem lsmR_apply (X : FVec Ideal S50000x40 .f32) (p : Fin 50000) (q : Fin 40) :
    Cert.ReferenceIdeal.Hand.lsmR (F := Ideal) X (ix2 p q) = Cert.Spec.logSoftmax 50000 40 (Ideal.ofBits .f32 0xFF800000#32) X (ix2 p q) := by
  rw [Cert.Spec.logSoftmax_apply, Cert.ReferenceIdeal.Hand.lsmR_unfold, Cert.ReferenceIdeal.Hand.tailR_apply, logsum_read, shifted_read, Ideal.subf_def]
  refine congrArg (fun s => (X (ix2 p q) - Cert.Spec.rowMax (Ideal.ofBits .f32 0xFF800000#32) (Cert.Spec.rowOf X p)) - Ideal.log s)
    (Finset.sum_congr rfl fun k _ => ?_)
  rw [Cert.ReferenceIdeal.Hand.expShiftR_apply, shifted_read, Ideal.hostUnary_exp_def]

/-- The second bias spread down the rows, read: the reference's two broadcasts against the kernel's 1×40 reshape. -/
theorem bias40_eq (G : FVec Ideal S50000x40 .f32) (x6 : FVec Ideal S40 .f32) :
    Cert.ReferenceIdeal.Hand.biasR40 (F := Ideal) G x6
      = fun i => G i + shapeCast Cert.KernelIdeal.S1x40 x6 Cert.KernelIdeal.Gen.shapeCasts_S40_S1x40 (ix2 (0 : Fin 1) (i 1)) := by
  funext i
  obtain ⟨p, k, rfl⟩ : ∃ (p : Fin 50000) (k : Fin 40), i = ix2 p k := ⟨i 0, i 1, eq_ix2 i⟩
  show FloatOps.addf (F := Ideal) (φ := .f32) (G (ix2 p k))
      (broadcastInDim S50000x40 ![0, 1] bcast_S1x40_S50000x40_0_1 (broadcastInDim S1x40 ![1] bcast_S40_S1x40_1 x6) (ix2 p k))
    = FloatOps.addf (F := Ideal) (φ := .f32) (G (ix2 p k)) (shapeCast Cert.KernelIdeal.S1x40 x6 Cert.KernelIdeal.Gen.shapeCasts_S40_S1x40 (ix2 (0 : Fin 1) k))
  rw [shapeCast_a_1a_apply,
    broadcastInDim_apply _ bcast_S1x40_S50000x40_0_1 _ (ix2 p k) (ix2 (0 : Fin 1) k) (fun a => match a with
      | ⟨0, _⟩ => rfl
      | ⟨1, _⟩ => by show k.val = if (40 : Nat) = 1 then 0 else k.val; rw [if_neg (by decide)]),
    broadcastInDim_apply _ bcast_S40_S1x40_1 x6 (ix2 (0 : Fin 1) k) (ix1 k) (fun a => match a with
      | ⟨0, _⟩ => by show k.val = if (40 : Nat) = 1 then 0 else k.val; rw [if_neg (by decide)])]

end Cert.Bridge

end
-- ==== Proof.Bridge.lean ====
/-
  The two programs compute one function of their arguments: the host operations are the same functions, the three dense
  stages agree index by index.
-/
import proofs.«114802_j66829691125867_2_alg».proof.Proof.BridgeHost
import proofs.«114802_j66829691125867_2_alg».proof.Proof.BridgeDense
import proofs.«114802_j66829691125867_2_alg».proof.Proof.BridgeSoftmax

set_option Elab.async false
set_option maxRecDepth 16384

noncomputable section

namespace Cert.Bridge

open Cert.ReferenceIdeal Cert.ReferenceIdeal.Gen
open Idealize.ShloMosaic Idealize.ShloMosaic.ValueIdx

/-! ## The two results -/

/-- THE BRIDGE: the reference's result and the kernel's are the same function of the seven arguments. -/
theorem ref_eq_kernel (x0 : FVec Ideal S50000x512 .f32) (x1 : (⟨S2x800000, .i32⟩ : BufTy).Contents (Elt Ideal)) (x2 : FVec Ideal S800000 .f32)
    (x3 : FVec Ideal S512x128 .f32) (x4 : FVec Ideal S128 .f32) (x5 : FVec Ideal S128x40 .f32) (x6 : FVec Ideal S40 .f32) :
    Cert.ReferenceIdeal.Hand.refValue x0 x1 x2 x3 x4 x5 x6 = Cert.KernelIdeal.Hand.kernelValue x0 x1 x2 x3 x4 x5 x6 := by
  unfold Cert.ReferenceIdeal.Hand.refValue Cert.KernelIdeal.Hand.kernelValue Cert.KernelIdeal.Hand.lsm2
  rw [row_eq, col_eq, normOf_eq, dot1_eq, agg128_eq, layer_eq, agg40_eq, bias40_eq]
  funext i
  obtain ⟨p, q, rfl⟩ : ∃ (p : Fin 50000) (q : Fin 40), i = ix2 p q := ⟨i 0, i 1, eq_ix2 i⟩
  exact lsmR_apply _ p q

end Cert.Bridge

end
-- ==== Proof.lean ====
/-
  The certificate of a two-layer graph convolution with a final row-wise log-softmax.

  The kernel runs three pipelined regions — a matrix product; bias, positive part and a matrix product; bias and the
  logarithm of the softmax — among host operations that build the graph's normalisation and aggregate each dense
  stage over the edges (gather at the sources, scale, scatter-add at the targets). The reference computes the same
  with host operations only. On the extended reals the two results are one function of the seven arguments, index
  by index: the rounding of the matrix products' operands is the identity, a matrix product into a zero accumulator is
  the plain sum of products, the kernel's row maximum and row sum are the reference's, and everything else is the
  same operation applied in the same order. No law is used that needs finite values, so the precondition is never
  opened.

  The three frames: the two kernel programs' are the generated frame certificates; the reference's is its run with
  the result dropped. `preserves` is `True`: the idealization rewrote nothing.
-/
import proofs.«114802_j66829691125867_2_alg».proof.Defs
import proofs.«114802_j66829691125867_2_alg».proof.Proof.Gen.Kernel
import proofs.«114802_j66829691125867_2_alg».proof.Proof.Gen.Kernel.Skeleton
import proofs.«114802_j66829691125867_2_alg».proof.Proof.Gen.Kernel.Launch
import proofs.«114802_j66829691125867_2_alg».proof.Proof.Gen.Kernel.Points
import proofs.«114802_j66829691125867_2_alg».proof.Proof.Gen.Kernel.Frame
import proofs.«114802_j66829691125867_2_alg».proof.Proof.Gen.KernelIdeal
import proofs.«114802_j66829691125867_2_alg».proof.Proof.Gen.KernelIdeal.Skeleton
import proofs.«114802_j66829691125867_2_alg».proof.Proof.Gen.KernelIdeal.Launch
import proofs.«114802_j66829691125867_2_alg».proof.Proof.Gen.KernelIdeal.Points
import proofs.«114802_j66829691125867_2_alg».proof.Proof.Gen.KernelIdeal.Frame
import proofs.«114802_j66829691125867_2_alg».proof.Proof.Gen.ReferenceIdeal
import proofs.«114802_j66829691125867_2_alg».proof.Proof.Gen.Pre_finite_inputs
import proofs.«114802_j66829691125867_2_alg».proof.Proof.RunP
import proofs.«114802_j66829691125867_2_alg».proof.Proof.KernelRun
import proofs.«114802_j66829691125867_2_alg».proof.Proof.KernelChain
import proofs.«114802_j66829691125867_2_alg».proof.Proof.RefChain
import proofs.«114802_j66829691125867_2_alg».proof.Proof.RefKeep
import proofs.«114802_j66829691125867_2_alg».proof.Proof.Bridge
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's run ends with every buffer at the fold of its operations over the launch contents, and no operation
    writes an argument. -/
theorem frame_ri : Cert.frame_ReferenceIdeal :=
  fun m ρ _ => (θ_run Cert.ReferenceIdeal.defs _ _).mono (fun r h c =>
    ⟨(h c Cert.ReferenceIdeal.main_arg0).trans (Cert.ReferenceIdeal.Hand.ops_keep_arg0 _),
     (h c Cert.ReferenceIdeal.main_arg1).trans (Cert.ReferenceIdeal.Hand.ops_keep_arg1 _),
     (h c Cert.ReferenceIdeal.main_arg2).trans (Cert.ReferenceIdeal.Hand.ops_keep_arg2 _),
     (h c Cert.ReferenceIdeal.main_arg3).trans (Cert.ReferenceIdeal.Hand.ops_keep_arg3 _),
     (h c Cert.ReferenceIdeal.main_arg4).trans (Cert.ReferenceIdeal.Hand.ops_keep_arg4 _),
     (h c Cert.ReferenceIdeal.main_arg5).trans (Cert.ReferenceIdeal.Hand.ops_keep_arg5 _),
     (h c Cert.ReferenceIdeal.main_arg6).trans (Cert.ReferenceIdeal.Hand.ops_keep_arg6 _)⟩)
    (Cert.ReferenceIdeal.ValueP.run_after (F := Ideal) m ρ)

/-- Both runs end with the result array at one function of the kernel's arguments: the kernel's by reading its
    boundary contents, the reference's by reading its fold and the bridge, the arguments agreeing. -/
theorem algebraic : Cert.algebraic_KernelIdeal_ReferenceIdeal := by
  intro m ρ m' ρ' _ hagree
  refine ⟨fun c => Cert.KernelIdeal.Hand.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.w8_out m ρ c), (h c).2⟩)
      (Cert.KernelIdeal.Hand.run_result (F := Ideal) m ρ)
  · refine (θ_run Cert.ReferenceIdeal.defs _ _).mono (fun r h c => ⟨?_,
      (h c Cert.ReferenceIdeal.main_arg0).trans (Cert.ReferenceIdeal.Hand.ops_keep_arg0 _),
      (h c Cert.ReferenceIdeal.main_arg1).trans (Cert.ReferenceIdeal.Hand.ops_keep_arg1 _),
      (h c Cert.ReferenceIdeal.main_arg2).trans (Cert.ReferenceIdeal.Hand.ops_keep_arg2 _),
      (h c Cert.ReferenceIdeal.main_arg3).trans (Cert.ReferenceIdeal.Hand.ops_keep_arg3 _),
      (h c Cert.ReferenceIdeal.main_arg4).trans (Cert.ReferenceIdeal.Hand.ops_keep_arg4 _),
      (h c Cert.ReferenceIdeal.main_arg5).trans (Cert.ReferenceIdeal.Hand.ops_keep_arg5 _),
      (h c Cert.ReferenceIdeal.main_arg6).trans (Cert.ReferenceIdeal.Hand.ops_keep_arg6 _)⟩)
      (Cert.ReferenceIdeal.ValueP.run_after (F := Ideal) m' ρ')
    obtain ⟨h0, h1, h2, h3, h4, h5, h6⟩ := hagree c
    refine (h c Cert.ReferenceIdeal.main_v105).trans ((Cert.ReferenceIdeal.Hand.ref_out _).trans
      ((Cert.Bridge.ref_eq_kernel _ _ _ _ _ _ _).trans ?_))
    show Cert.KernelIdeal.Hand.kernelValue
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = _
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
